-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1971 : Shape := ⟨1, ![1971]⟩
abbrev S4836 : Shape := ⟨1, ![4836]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1971 : S_.BroadcastsInDim S1971 (![] : Fin 0 → Fin S1971.rank)
  reducesTo_S1971_S_d0 : S1971.ReducesTo [0] S_
  bcast_S_S4836 : S_.BroadcastsInDim S4836 (![] : Fin 0 → Fin S4836.rank)
  reducesTo_S4836_S_d0 : S4836.ReducesTo [0] S_

variable [Facts]

def fn_part2 {F : FTy → Type} [FloatOps F] (main_arg6 : IVec S4836 32) (main_v29 : IVec S_ 1) (main_v31 : IVec S1971 1) (main_c_13 : IVec S_ 1) : IVec S_ 1 :=
  let main_v32 : IVec S_ 1 := (fun x v => Host.reduce IntOp.andi x v reducesTo_S1971_S_d0 h_S_) main_v31 main_c_13
  let main_v33 : IVec S_ 1 := andi main_v29 main_v32
  let main_c_14 : IVec S_ 32 := constantI S_ 32 0#32
  let main_v34 : IVec S4836 32 := broadcastInDim S4836 ![] bcast_S_S4836 main_c_14
  let main_v35 : IVec S4836 1 := cmpi .sge main_arg6 main_v34
  let main_c_15 : IVec S_ 1 := constantI S_ 1 1#1
  let main_v36 : IVec S_ 1 := (fun x v => Host.reduce IntOp.andi x v reducesTo_S4836_S_d0 h_S_) main_v35 main_c_15
  let main_v37 : IVec S_ 1 := andi main_v33 main_v36
  main_v37

def fn_part1 {F : FTy → Type} [FloatOps F] (main_arg3 : IVec S1971 32) (main_arg4 : IVec S1971 32) (main_arg6 : IVec S4836 32) (main_arg7 : IVec S4836 32) (main_v13 : IVec S_ 1) (main_v15 : IVec S1971 1) (main_c_5 : IVec S_ 1) : IVec S_ 1 :=
  let main_v16 : IVec S_ 1 := (fun x v => Host.reduce IntOp.andi x v reducesTo_S1971_S_d0 h_S_) main_v15 main_c_5
  let main_v17 : IVec S_ 1 := andi main_v13 main_v16
  let main_c_6 : IVec S_ 32 := constantI S_ 32 512#32
  let main_v18 : IVec S1971 32 := broadcastInDim S1971 ![] bcast_S_S1971 main_c_6
  let main_v19 : IVec S1971 1 := cmpi .slt main_arg4 main_v18
  let main_c_7 : IVec S_ 1 := constantI S_ 1 1#1
  let main_v20 : IVec S_ 1 := (fun x v => Host.reduce IntOp.andi x v reducesTo_S1971_S_d0 h_S_) main_v19 main_c_7
  let main_v21 : IVec S_ 1 := andi main_v17 main_v20
  let main_c_8 : IVec S_ 32 := constantI S_ 32 0#32
  let main_v22 : IVec S4836 32 := broadcastInDim S4836 ![] bcast_S_S4836 main_c_8
  let main_v23 : IVec S4836 1 := cmpi .sge main_arg7 main_v22
  let main_c_9 : IVec S_ 1 := constantI S_ 1 1#1
  let main_v24 : IVec S_ 1 := (fun x v => Host.reduce IntOp.andi x v reducesTo_S4836_S_d0 h_S_) main_v23 main_c_9
  let main_v25 : IVec S_ 1 := andi main_v21 main_v24
  let main_c_10 : IVec S_ 32 := constantI S_ 32 640#32
  let main_v26 : IVec S4836 32 := broadcastInDim S4836 ![] bcast_S_S4836 main_c_10
  let main_v27 : IVec S4836 1 := cmpi .slt main_arg7 main_v26
  let main_c_11 : IVec S_ 1 := constantI S_ 1 1#1
  let main_v28 : IVec S_ 1 := (fun x v => Host.reduce IntOp.andi x v reducesTo_S4836_S_d0 h_S_) main_v27 main_c_11
  let main_v29 : IVec S_ 1 := andi main_v25 main_v28
  let main_c_12 : IVec S_ 32 := constantI S_ 32 0#32
  let main_v30 : IVec S1971 32 := broadcastInDim S1971 ![] bcast_S_S1971 main_c_12
  let main_v31 : IVec S1971 1 := cmpi .sge main_arg3 main_v30
  let main_c_13 : IVec S_ 1 := constantI S_ 1 1#1
  fn_part2 (F := F) main_arg6 main_v29 main_v31 main_c_13

def fn {F : FTy → Type} [FloatOps F] (main_arg0 : FVec F S16384x512 .f32) (main_arg1 : FVec F S1971 .f32) (main_arg2 : FVec F S4836 .f32) (main_arg3 : IVec S1971 32) (main_arg4 : IVec S1971 32) (main_arg5 : IVec S1971 32) (main_arg6 : IVec S4836 32) (main_arg7 : IVec S4836 32) (main_arg8 : IVec S4836 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1971 .f32 := Host.absf main_arg1
  let main_cst_0 : FVec F S_ .f32 := constant S_ .f32 0x7F800000#32
  let main_v5 : FVec F S1971 .f32 := broadcastInDim S1971 ![] bcast_S_S1971 main_cst_0
  let main_v6 : IVec S1971 1 := cmpf .olt main_v4 main_v5
  let main_c_1 : IVec S_ 1 := constantI S_ 1 1#1
  let main_v7 : IVec S_ 1 := (fun x v => Host.reduce IntOp.andi x v reducesTo_S1971_S_d0 h_S_) main_v6 main_c_1
  let main_v8 : IVec S_ 1 := andi main_v3 main_v7
  let main_v9 : FVec F S4836 .f32 := Host.absf main_arg2
  let main_cst_2 : FVec F S_ .f32 := constant S_ .f32 0x7F800000#32
  let main_v10 : FVec F S4836 .f32 := broadcastInDim S4836 ![] bcast_S_S4836 main_cst_2
  let main_v11 : IVec S4836 1 := cmpf .olt main_v9 main_v10
  let main_c_3 : IVec S_ 1 := constantI S_ 1 1#1
  let main_v12 : IVec S_ 1 := (fun x v => Host.reduce IntOp.andi x v reducesTo_S4836_S_d0 h_S_) main_v11 main_c_3
  let main_v13 : IVec S_ 1 := andi main_v8 main_v12
  let main_c_4 : IVec S_ 32 := constantI S_ 32 0#32
  let main_v14 : IVec S1971 32 := broadcastInDim S1971 ![] bcast_S_S1971 main_c_4
  let main_v15 : IVec S1971 1 := cmpi .sge main_arg4 main_v14
  let main_c_5 : IVec S_ 1 := constantI S_ 1 1#1
  fn_part1 (F := F) main_arg3 main_arg4 main_arg6 main_arg7 main_v13 main_v15 main_c_5
-- ==== Kernel.lean ====
abbrev S16384x512 : Shape := ⟨2, ![16384, 512]⟩
abbrev S1971 : Shape := ⟨1, ![1971]⟩
abbrev S4836 : Shape := ⟨1, ![4836]⟩
abbrev S_ : Shape := ⟨0, ![]⟩
abbrev S2048 : Shape := ⟨1, ![2048]⟩
abbrev S1x2048 : Shape := ⟨2, ![1, 2048]⟩
abbrev S4864 : Shape := ⟨1, ![4864]⟩
abbrev S1x4864 : Shape := ⟨2, ![1, 4864]⟩
abbrev S512 : Shape := ⟨1, ![512]⟩
abbrev S512x1 : Shape := ⟨2, ![512, 1]⟩
abbrev S512x2048 : Shape := ⟨2, ![512, 2048]⟩
abbrev S128 : Shape := ⟨1, ![128]⟩
abbrev S1x128 : Shape := ⟨2, ![1, 128]⟩
abbrev S2048x1 : Shape := ⟨2, ![2048, 1]⟩
abbrev S2048x128 : Shape := ⟨2, ![2048, 128]⟩
abbrev S512x4864 : Shape := ⟨2, ![512, 4864]⟩
abbrev S128x1 : Shape := ⟨2, ![128, 1]⟩
abbrev S128x4864 : Shape := ⟨2, ![128, 4864]⟩
abbrev S256 : Shape := ⟨1, ![256]⟩
abbrev S1x256 : Shape := ⟨2, ![1, 256]⟩
abbrev S4864x1 : Shape := ⟨2, ![4864, 1]⟩
abbrev S4864x256 : Shape := ⟨2, ![4864, 256]⟩
abbrev S16384x256 : Shape := ⟨2, ![16384, 256]⟩
abbrev S128x512 : Shape := ⟨2, ![128, 512]⟩
abbrev S128x256 : Shape := ⟨2, ![128, 256]⟩
abbrev S128x2048 : Shape := ⟨2, ![128, 2048]⟩
abbrev S128x128 : Shape := ⟨2, ![128, 128]⟩

abbrev nBuf : Space → Nat
  | .hbm => 90
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S1971, .f32⟩
  | .hbm, ⟨2, _⟩ => ⟨S4836, .f32⟩
  | .hbm, ⟨3, _⟩ => ⟨S1971, .i32⟩
  | .hbm, ⟨4, _⟩ => ⟨S1971, .i32⟩
  | .hbm, ⟨5, _⟩ => ⟨S1971, .i32⟩
  | .hbm, ⟨6, _⟩ => ⟨S4836, .i32⟩
  | .hbm, ⟨7, _⟩ => ⟨S4836, .i32⟩
  | .hbm, ⟨8, _⟩ => ⟨S4836, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S_, .i32⟩
  | .hbm, ⟨13, _⟩ => ⟨S_, .i32⟩
  | .hbm, ⟨14, _⟩ => ⟨S2048, .i32⟩
  | .hbm, ⟨15, _⟩ => ⟨S_, .i32⟩
  | .hbm, ⟨16, _⟩ => ⟨S_, .f32⟩
  | .hbm, ⟨17, _⟩ => ⟨S2048, .f32⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S1x2048, .i32⟩
  | .hbm, ⟨22, _⟩ => ⟨S_, .i32⟩
  | .hbm, ⟨23, _⟩ => ⟨S_, .i32⟩
  | .hbm, ⟨24, _⟩ => ⟨S4864, .i32⟩
  | .hbm, ⟨25, _⟩ => ⟨S_, .i32⟩
  | .hbm, ⟨26, _⟩ => ⟨S_, .i32⟩
  | .hbm, ⟨27, _⟩ => ⟨S4864, .i32⟩
  | .hbm, ⟨28, _⟩ => ⟨S_, .i32⟩
  | .hbm, ⟨29, _⟩ => ⟨S_, .f32⟩
  | .hbm, ⟨30, _⟩ => ⟨S4864, .f32⟩
  | .hbm, ⟨31, _⟩ => ⟨S_, .i32⟩
  | .hbm, ⟨32, _⟩ => ⟨S_, .i32⟩
  | .hbm, ⟨33, _⟩ => ⟨S4864, .i32⟩
  | .hbm, ⟨34, _⟩ => ⟨S1x4864, .i32⟩
  | .hbm, ⟨35, _⟩ => ⟨S512, .i32⟩
  | .hbm, ⟨36, _⟩ => ⟨S512x1, .i32⟩
  | .hbm, ⟨37, _⟩ => ⟨S1x2048, .i32⟩
  | .hbm, ⟨38, _⟩ => ⟨S512x2048, .i32⟩
  | .hbm, ⟨39, _⟩ => ⟨S512x2048, .i32⟩
  | .hbm, ⟨40, _⟩ => ⟨S512x2048, .i1⟩
  | .hbm, ⟨41, _⟩ => ⟨S1x2048, .f32⟩
  | .hbm, ⟨42, _⟩ => ⟨S_, .f32⟩
  | .hbm, ⟨43, _⟩ => ⟨S_, .f32⟩
  | .hbm, ⟨44, _⟩ => ⟨S512x2048, .f32⟩
  | .hbm, ⟨45, _⟩ => ⟨S512x2048, .f32⟩
  | .hbm, ⟨46, _⟩ => ⟨S512x2048, .f32⟩
  | .hbm, ⟨47, _⟩ => ⟨S512x2048, .bf16⟩
  | .hbm, ⟨48, _⟩ => ⟨S128, .i32⟩
  | .hbm, ⟨49, _⟩ => ⟨S1x128, .i32⟩
  | .hbm, ⟨50, _⟩ => ⟨S2048x1, .i32⟩
  | .hbm, ⟨51, _⟩ => ⟨S2048x128, .i32⟩
  | .hbm, ⟨52, _⟩ => ⟨S2048x128, .i32⟩
  | .hbm, ⟨53, _⟩ => ⟨S2048x128, .i1⟩
  | .hbm, ⟨54, _⟩ => ⟨S2048x128, .bf16⟩
  | .hbm, ⟨55, _⟩ => ⟨S1x4864, .i32⟩
  | .hbm, ⟨56, _⟩ => ⟨S512x4864, .i32⟩
  | .hbm, ⟨57, _⟩ => ⟨S512x4864, .i32⟩
  | .hbm, ⟨58, _⟩ => ⟨S512x4864, .i1⟩
  | .hbm, ⟨59, _⟩ => ⟨S1x4864, .f32⟩
  | .hbm, ⟨60, _⟩ => ⟨S_, .f32⟩
  | .hbm, ⟨61, _⟩ => ⟨S_, .f32⟩
  | .hbm, ⟨62, _⟩ => ⟨S512x4864, .f32⟩
  | .hbm, ⟨63, _⟩ => ⟨S512x4864, .f32⟩
  | .hbm, ⟨64, _⟩ => ⟨S512x4864, .f32⟩
  | .hbm, ⟨65, _⟩ => ⟨S512x4864, .bf16⟩
  | .hbm, ⟨66, _⟩ => ⟨S128, .i32⟩
  | .hbm, ⟨67, _⟩ => ⟨S128x1, .i32⟩
  | .hbm, ⟨68, _⟩ => ⟨S1x4864, .i32⟩
  | .hbm, ⟨69, _⟩ => ⟨S_, .i32⟩
  | .hbm, ⟨70, _⟩ => ⟨S1x4864, .i32⟩
  | .hbm, ⟨71, _⟩ => ⟨S1x4864, .i32⟩
  | .hbm, ⟨72, _⟩ => ⟨S128x4864, .i32⟩
  | .hbm, ⟨73, _⟩ => ⟨S128x4864, .i32⟩
  | .hbm, ⟨74, _⟩ => ⟨S128x4864, .i1⟩
  | .hbm, ⟨75, _⟩ => ⟨S1x4864, .f32⟩
  | .hbm, ⟨76, _⟩ => ⟨S_, .f32⟩
  | .hbm, ⟨77, _⟩ => ⟨S_, .f32⟩
  | .hbm, ⟨78, _⟩ => ⟨S128x4864, .f32⟩
  | .hbm, ⟨79, _⟩ => ⟨S128x4864, .f32⟩
  | .hbm, ⟨80, _⟩ => ⟨S128x4864, .f32⟩
  | .hbm, ⟨81, _⟩ => ⟨S128x4864, .bf16⟩
  | .hbm, ⟨82, _⟩ => ⟨S256, .i32⟩
  | .hbm, ⟨83, _⟩ => ⟨S1x256, .i32⟩
  | .hbm, ⟨84, _⟩ => ⟨S4864x1, .i32⟩
  | .hbm, ⟨85, _⟩ => ⟨S4864x256, .i32⟩
  | .hbm, ⟨86, _⟩ => ⟨S4864x256, .i32⟩
  | .hbm, ⟨87, _⟩ => ⟨S4864x256, .i1⟩
  | .hbm, ⟨88, _⟩ => ⟨S4864x256, .bf16⟩
  | .hbm, ⟨89, _⟩ => ⟨S16384x256, .f32⟩
  | .local _ .vmem, ⟨0, _⟩ => ⟨S128x512, .f32⟩
  | .local _ .vmem, ⟨1, _⟩ => ⟨S128x512, .f32⟩
  | .local _ .vmem, ⟨2, _⟩ => ⟨S512x2048, .bf16⟩
  | .local _ .vmem, ⟨3, _⟩ => ⟨S1x2048, .i32⟩
  | .local _ .vmem, ⟨4, _⟩ => ⟨S2048x128, .bf16⟩
  | .local _ .vmem, ⟨5, _⟩ => ⟨S512x4864, .bf16⟩
  | .local _ .vmem, ⟨6, _⟩ => ⟨S128x4864, .bf16⟩
  | .local _ .vmem, ⟨7, _⟩ => ⟨S1x4864, .i32⟩
  | .local _ .vmem, ⟨8, _⟩ => ⟨S4864x256, .bf16⟩
  | .local _ .vmem, ⟨9, _⟩ => ⟨S128x256, .f32⟩
  | .local _ .vmem, ⟨10, _⟩ => ⟨S128x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_c_1 : Ref sig .tc := ⟨.hbm, 15, rfl⟩
abbrev main_call2_v0 : Ref sig .tc := ⟨.hbm, 16, rfl⟩
abbrev main_v2 : Ref sig .tc := ⟨.hbm, 17, rfl⟩
abbrev main_c_2 : Ref sig .tc := ⟨.hbm, 18, rfl⟩
abbrev main_call3_v0 : Ref sig .tc := ⟨.hbm, 19, rfl⟩
abbrev main_v3 : Ref sig .tc := ⟨.hbm, 20, rfl⟩
abbrev main_v4 : Ref sig .tc := ⟨.hbm, 21, rfl⟩
abbrev main_c_3 : Ref sig .tc := ⟨.hbm, 22, rfl⟩
abbrev main_call4_v0 : Ref sig .tc := ⟨.hbm, 23, rfl⟩
abbrev main_v5 : Ref sig .tc := ⟨.hbm, 24, rfl⟩
abbrev main_c_4 : Ref sig .tc := ⟨.hbm, 25, rfl⟩
abbrev main_call5_v0 : Ref sig .tc := ⟨.hbm, 26, rfl⟩
abbrev main_v6 : Ref sig .tc := ⟨.hbm, 27, rfl⟩
abbrev main_c_5 : Ref sig .tc := ⟨.hbm, 28, rfl⟩
abbrev main_call6_v0 : Ref sig .tc := ⟨.hbm, 29, rfl⟩
abbrev main_v7 : Ref sig .tc := ⟨.hbm, 30, rfl⟩
abbrev main_c_6 : Ref sig .tc := ⟨.hbm, 31, rfl⟩
abbrev main_call7_v0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_call8_v0 : Ref sig .tc := ⟨.hbm, 43, rfl⟩
abbrev main_call8_v1 : Ref sig .tc := ⟨.hbm, 44, rfl⟩
abbrev main_call8_v2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_7 : Ref sig .tc := ⟨.hbm, 60, rfl⟩
abbrev main_call9_v0 : Ref sig .tc := ⟨.hbm, 61, rfl⟩
abbrev main_call9_v1 : Ref sig .tc := ⟨.hbm, 62, rfl⟩
abbrev main_call9_v2 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_9 : Ref sig .tc := ⟨.hbm, 76, rfl⟩
abbrev main_call10_v0 : Ref sig .tc := ⟨.hbm, 77, rfl⟩
abbrev main_call10_v1 : Ref sig .tc := ⟨.hbm, 78, rfl⟩
abbrev main_call10_v2 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4864 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4864 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4864 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4864x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S1971_S2048_0770 : S1971.Pads (![0] : Fin 1 → Nat) ![77] ![0] S2048
  h_S_ : 0 < S_.numel
  shapeCasts_S2048_S1x2048 : S2048.ShapeCasts S1x2048
  pads_S4836_S4864_0280 : S4836.Pads (![0] : Fin 1 → Nat) ![28] ![0] S4864
  shapeCasts_S4864_S1x4864 : S4864.ShapeCasts S1x4864
  bcast_S512_S512x1_0 : S512.BroadcastsInDim S512x1 (![0] : Fin 1 → Fin S512x1.rank)
  bcast_S2048_S1x2048_1 : S2048.BroadcastsInDim S1x2048 (![1] : Fin 1 → Fin S1x2048.rank)
  bcast_S512x1_S512x2048_0_1 : S512x1.BroadcastsInDim S512x2048 (![0, 1] : Fin 2 → Fin S512x2048.rank)
  bcast_S1x2048_S512x2048_0_1 : S1x2048.BroadcastsInDim S512x2048 (![0, 1] : Fin 2 → Fin S512x2048.rank)
  bcast_S_S512x2048 : S_.BroadcastsInDim S512x2048 (![] : Fin 0 → Fin S512x2048.rank)
  bitsLt_bf16_f32 : FTy.bits .bf16 < FTy.bits .f32
  bcast_S128_S1x128_1 : S128.BroadcastsInDim S1x128 (![1] : Fin 1 → Fin S1x128.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S1x128_S2048x128_0_1 : S1x128.BroadcastsInDim S2048x128 (![0, 1] : Fin 2 → Fin S2048x128.rank)
  bcast_S4864_S1x4864_1 : S4864.BroadcastsInDim S1x4864 (![1] : Fin 1 → Fin S1x4864.rank)
  bcast_S512x1_S512x4864_0_1 : S512x1.BroadcastsInDim S512x4864 (![0, 1] : Fin 2 → Fin S512x4864.rank)
  bcast_S1x4864_S512x4864_0_1 : S1x4864.BroadcastsInDim S512x4864 (![0, 1] : Fin 2 → Fin S512x4864.rank)
  bcast_S_S512x4864 : S_.BroadcastsInDim S512x4864 (![] : Fin 0 → Fin S512x4864.rank)
  bcast_S128_S128x1_0 : S128.BroadcastsInDim S128x1 (![0] : Fin 1 → Fin S128x1.rank)
  bcast_S_S1x4864 : S_.BroadcastsInDim S1x4864 (![] : Fin 0 → Fin S1x4864.rank)
  bcast_S128x1_S128x4864_0_1 : S128x1.BroadcastsInDim S128x4864 (![0, 1] : Fin 2 → Fin S128x4864.rank)
  bcast_S1x4864_S128x4864_0_1 : S1x4864.BroadcastsInDim S128x4864 (![0, 1] : Fin 2 → Fin S128x4864.rank)
  bcast_S_S128x4864 : S_.BroadcastsInDim S128x4864 (![] : Fin 0 → Fin S128x4864.rank)
  bcast_S256_S1x256_1 : S256.BroadcastsInDim S1x256 (![1] : Fin 1 → Fin S1x256.rank)
  bcast_S4864_S4864x1_0 : S4864.BroadcastsInDim S4864x1 (![0] : Fin 1 → Fin S4864x1.rank)
  bcast_S4864x1_S4864x256_0_1 : S4864x1.BroadcastsInDim S4864x256 (![0, 1] : Fin 2 → Fin S4864x256.rank)
  bcast_S1x256_S4864x256_0_1 : S1x256.BroadcastsInDim S4864x256 (![0, 1] : Fin 2 → Fin S4864x256.rank)
  inb_S128x512_S128x512_0_0 : ∀ a, (![0, 0] : Fin 2 → Nat) a + S128x512.size a ≤ S128x512.size a
  h_S128x512 : 0 < S128x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x4864_S512x4864_0_0 : ∀ a, (![0, 0] : Fin 2 → Nat) a + S512x4864.size a ≤ S512x4864.size a
  h_S512x4864 : 0 < S512x4864.numel
  shapeCasts_S512x4864_S512x4864 : S512x4864.ShapeCasts S512x4864
  inb_S128x4864_S128x4864_0_0 : ∀ a, (![0, 0] : Fin 2 → Nat) a + S128x4864.size a ≤ S128x4864.size a
  h_S128x4864 : 0 < S128x4864.numel
  shapeCasts_S128x4864_S128x4864 : S128x4864.ShapeCasts S128x4864
  inb_S1x4864_S1x4864_0_0 : ∀ a, (![0, 0] : Fin 2 → Nat) a + S1x4864.size a ≤ S1x4864.size a
  h_S1x4864 : 0 < S1x4864.numel
  shapeCasts_S1x4864_S1x4864 : S1x4864.ShapeCasts S1x4864
  broadcasts_S1x4864_S128x4864 : S1x4864.Broadcasts S128x4864
  inb_S4864x256_S4864x256_0_0 : ∀ a, (![0, 0] : Fin 2 → Nat) a + S4864x256.size a ≤ S4864x256.size a
  h_S4864x256 : 0 < S4864x256.numel
  shapeCasts_S4864x256_S4864x256 : S4864x256.ShapeCasts S4864x256
  inb_S128x256_S128x256_0_0 : ∀ a, (![0, 0] : Fin 2 → Nat) a + S128x256.size a ≤ S128x256.size a
  h_S128x256 : 0 < S128x256.numel
  dot_S128x512_S512x2048_S128x2048_1_0_0_1_n_n_wf : DotDims.WF S128x512 S512x2048 S128x2048 [1] [0] [0] [1] [] []
  dot_S128x2048_S2048x128_S128x128_1_0_0_1_n_n_wf : DotDims.WF S128x2048 S2048x128 S128x128 [1] [0] [0] [1] [] []
  dot_S128x512_S512x4864_S128x4864_1_0_0_1_n_n_wf : DotDims.WF S128x512 S512x4864 S128x4864 [1] [0] [0] [1] [] []
  dot_S128x128_S128x4864_S128x4864_1_0_0_1_n_n_wf : DotDims.WF S128x128 S128x4864 S128x4864 [1] [0] [0] [1] [] []
  dot_S128x4864_S4864x256_S128x256_1_0_0_1_n_n_wf : DotDims.WF S128x4864 S4864x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S16384x512.size a
  hwx0_0 : ∀ i : grid0.Coords, EltTy.bits .f32 = 32 ∨ (Rect.block (s := S16384x512) S128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .i32 = 32 ∨ (Rect.block (s := S1x2048) S1x2048.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S2048x128.size a
  hwx0_3 : ∀ i : grid0.Coords, EltTy.bits .bf16 = 32 ∨ (Rect.block (s := S2048x128) S2048x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x4864.size a ≤ S512x4864.size a
  hwx0_4 : ∀ i : grid0.Coords, EltTy.bits .bf16 = 32 ∨ (Rect.block (s := S512x4864) S512x4864.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x4864.size a ≤ S128x4864.size a
  hwx0_5 : ∀ i : grid0.Coords, EltTy.bits .bf16 = 32 ∨ (Rect.block (s := S128x4864) S128x4864.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4864.size a ≤ S1x4864.size a
  hwx0_6 : ∀ i : grid0.Coords, EltTy.bits .i32 = 32 ∨ (Rect.block (s := S1x4864) S1x4864.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4864x256.size a ≤ S4864x256.size a
  hwx0_7 : ∀ i : grid0.Coords, EltTy.bits .bf16 = 32 ∨ (Rect.block (s := S4864x256) S4864x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x256.size a ≤ S16384x256.size a
  hwx0_8 : ∀ i : grid0.Coords, EltTy.bits .f32 = 32 ∨ (Rect.block (s := S16384x256) S128x256.size (cc0_transform_8 i) (hinb0_8 i)).WholeWords (EltTy.packing .f32)

variable [Facts₀]

def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf
def dot_S128x512_S512x4864_S128x4864_1_0_0_1_n_n : DotDims S128x512 S512x4864 S128x4864 where
  lhsContracting := [1]
  rhsContracting := [0]
  lhsNonContracting := [0]
  rhsNonContracting := [1]
  lhsBatch := []
  rhsBatch := []
  wf := dot_S128x512_S512x4864_S128x4864_1_0_0_1_n_n_wf
def dot_S128x128_S128x4864_S128x4864_1_0_0_1_n_n : DotDims S128x128 S128x4864 S128x4864 where
  lhsContracting := [1]
  rhsContracting := [0]
  lhsNonContracting := [0]
  rhsNonContracting := [1]
  lhsBatch := []
  rhsBatch := []
  wf := dot_S128x128_S128x4864_S128x4864_1_0_0_1_n_n_wf
def dot_S128x4864_S4864x256_S128x256_1_0_0_1_n_n : DotDims S128x4864 S4864x256 S128x256 where
  lhsContracting := [1]
  rhsContracting := [0]
  lhsNonContracting := [0]
  rhsNonContracting := [1]
  lhsBatch := []
  rhsBatch := []
  wf := dot_S128x4864_S4864x256_S128x256_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2048x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S512x4864.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S128x4864.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x4864.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v50) S4864x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v51) S128x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x512 : Shape := ⟨2, ![16384, 512]⟩
abbrev S1971 : Shape := ⟨1, ![1971]⟩
abbrev S4836 : Shape := ⟨1, ![4836]⟩
abbrev S_ : Shape := ⟨0, ![]⟩
abbrev S1971x1 : Shape := ⟨2, ![1971, 1]⟩
abbrev S16384x1971 : Shape := ⟨2, ![16384, 1971]⟩
abbrev S1x1971 : Shape := ⟨2, ![1, 1971]⟩
abbrev S16384x128 : Shape := ⟨2, ![16384, 128]⟩
abbrev S16384x640 : Shape := ⟨2, ![16384, 640]⟩
abbrev S4836x1 : Shape := ⟨2, ![4836, 1]⟩
abbrev S16384x4836 : Shape := ⟨2, ![16384, 4836]⟩
abbrev S1x4836 : Shape := ⟨2, ![1, 4836]⟩
abbrev S16384x256 : Shape := ⟨2, ![16384, 256]⟩

abbrev nBuf : Space → Nat
  | .hbm => 111
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1971, .f32⟩
  | .hbm, ⟨2, _⟩ => ⟨S4836, .f32⟩
  | .hbm, ⟨3, _⟩ => ⟨S1971, .i32⟩
  | .hbm, ⟨4, _⟩ => ⟨S1971, .i32⟩
  | .hbm, ⟨5, _⟩ => ⟨S1971, .i32⟩
  | .hbm, ⟨6, _⟩ => ⟨S4836, .i32⟩
  | .hbm, ⟨7, _⟩ => ⟨S4836, .i32⟩
  | .hbm, ⟨8, _⟩ => ⟨S4836, .i32⟩
  | .hbm, ⟨9, _⟩ => ⟨S_, .i32⟩
  | .hbm, ⟨10, _⟩ => ⟨S1971, .i32⟩
  | .hbm, ⟨11, _⟩ => ⟨S1971, .i1⟩
  | .hbm, ⟨12, _⟩ => ⟨S_, .i32⟩
  | .hbm, ⟨13, _⟩ => ⟨S1971, .i32⟩
  | .hbm, ⟨14, _⟩ => ⟨S1971, .i32⟩
  | .hbm, ⟨15, _⟩ => ⟨S1971, .i32⟩
  | .hbm, ⟨16, _⟩ => ⟨S1971x1, .i32⟩
  | .hbm, ⟨17, _⟩ => ⟨S16384x1971, .f32⟩
  | .hbm, ⟨18, _⟩ => ⟨S1x1971, .f32⟩
  | .hbm, ⟨19, _⟩ => ⟨S16384x1971, .f32⟩
  | .hbm, ⟨20, _⟩ => ⟨S16384x1971, .f32⟩
  | .hbm, ⟨21, _⟩ => ⟨S_, .i32⟩
  | .hbm, ⟨22, _⟩ => ⟨S1971, .i32⟩
  | .hbm, ⟨23, _⟩ => ⟨S1971, .i1⟩
  | .hbm, ⟨24, _⟩ => ⟨S16384x1971, .f32⟩
  | .hbm, ⟨25, _⟩ => ⟨S_, .i32⟩
  | .hbm, ⟨26, _⟩ => ⟨S1971, .i32⟩
  | .hbm, ⟨27, _⟩ => ⟨S1971, .i1⟩
  | .hbm, ⟨28, _⟩ => ⟨S_, .f32⟩
  | .hbm, ⟨29, _⟩ => ⟨S16384x1971, .f32⟩
  | .hbm, ⟨30, _⟩ => ⟨S16384x1971, .f32⟩
  | .hbm, ⟨31, _⟩ => ⟨S_, .i32⟩
  | .hbm, ⟨32, _⟩ => ⟨S1971, .i32⟩
  | .hbm, ⟨33, _⟩ => ⟨S1971, .i1⟩
  | .hbm, ⟨34, _⟩ => ⟨S16384x1971, .f32⟩
  | .hbm, ⟨35, _⟩ => ⟨S16384x1971, .f32⟩
  | .hbm, ⟨36, _⟩ => ⟨S_, .f32⟩
  | .hbm, ⟨37, _⟩ => ⟨S16384x1971, .f32⟩
  | .hbm, ⟨38, _⟩ => ⟨S16384x1971, .f32⟩
  | .hbm, ⟨39, _⟩ => ⟨S_, .f32⟩
  | .hbm, ⟨40, _⟩ => ⟨S16384x1971, .f32⟩
  | .hbm, ⟨41, _⟩ => ⟨S16384x1971, .f32⟩
  | .hbm, ⟨42, _⟩ => ⟨S16384x1971, .i1⟩
  | .hbm, ⟨43, _⟩ => ⟨S16384x1971, .f32⟩
  | .hbm, ⟨44, _⟩ => ⟨S16384x1971, .i1⟩
  | .hbm, ⟨45, _⟩ => ⟨S16384x1971, .f32⟩
  | .hbm, ⟨46, _⟩ => ⟨S16384x1971, .i1⟩
  | .hbm, ⟨47, _⟩ => ⟨S16384x1971, .f32⟩
  | .hbm, ⟨48, _⟩ => ⟨S_, .f32⟩
  | .hbm, ⟨49, _⟩ => ⟨S16384x128, .f32⟩
  | .hbm, ⟨50, _⟩ => ⟨S_, .i32⟩
  | .hbm, ⟨51, _⟩ => ⟨S1971, .i32⟩
  | .hbm, ⟨52, _⟩ => ⟨S1971, .i1⟩
  | .hbm, ⟨53, _⟩ => ⟨S_, .i32⟩
  | .hbm, ⟨54, _⟩ => ⟨S1971, .i32⟩
  | .hbm, ⟨55, _⟩ => ⟨S1971, .i32⟩
  | .hbm, ⟨56, _⟩ => ⟨S1971, .i32⟩
  | .hbm, ⟨57, _⟩ => ⟨S1971x1, .i32⟩
  | .hbm, ⟨58, _⟩ => ⟨S16384x128, .f32⟩
  | .hbm, ⟨59, _⟩ => ⟨S16384x640, .f32⟩
  | .hbm, ⟨60, _⟩ => ⟨S_, .i32⟩
  | .hbm, ⟨61, _⟩ => ⟨S4836, .i32⟩
  | .hbm, ⟨62, _⟩ => ⟨S4836, .i1⟩
  | .hbm, ⟨63, _⟩ => ⟨S_, .i32⟩
  | .hbm, ⟨64, _⟩ => ⟨S4836, .i32⟩
  | .hbm, ⟨65, _⟩ => ⟨S4836, .i32⟩
  | .hbm, ⟨66, _⟩ => ⟨S4836, .i32⟩
  | .hbm, ⟨67, _⟩ => ⟨S4836x1, .i32⟩
  | .hbm, ⟨68, _⟩ => ⟨S16384x4836, .f32⟩
  | .hbm, ⟨69, _⟩ => ⟨S1x4836, .f32⟩
  | .hbm, ⟨70, _⟩ => ⟨S16384x4836, .f32⟩
  | .hbm, ⟨71, _⟩ => ⟨S16384x4836, .f32⟩
  | .hbm, ⟨72, _⟩ => ⟨S_, .i32⟩
  | .hbm, ⟨73, _⟩ => ⟨S4836, .i32⟩
  | .hbm, ⟨74, _⟩ => ⟨S4836, .i1⟩
  | .hbm, ⟨75, _⟩ => ⟨S16384x4836, .f32⟩
  | .hbm, ⟨76, _⟩ => ⟨S_, .i32⟩
  | .hbm, ⟨77, _⟩ => ⟨S4836, .i32⟩
  | .hbm, ⟨78, _⟩ => ⟨S4836, .i1⟩
  | .hbm, ⟨79, _⟩ => ⟨S_, .f32⟩
  | .hbm, ⟨80, _⟩ => ⟨S16384x4836, .f32⟩
  | .hbm, ⟨81, _⟩ => ⟨S16384x4836, .f32⟩
  | .hbm, ⟨82, _⟩ => ⟨S_, .i32⟩
  | .hbm, ⟨83, _⟩ => ⟨S4836, .i32⟩
  | .hbm, ⟨84, _⟩ => ⟨S4836, .i1⟩
  | .hbm, ⟨85, _⟩ => ⟨S16384x4836, .f32⟩
  | .hbm, ⟨86, _⟩ => ⟨S16384x4836, .f32⟩
  | .hbm, ⟨87, _⟩ => ⟨S_, .f32⟩
  | .hbm, ⟨88, _⟩ => ⟨S16384x4836, .f32⟩
  | .hbm, ⟨89, _⟩ => ⟨S16384x4836, .f32⟩
  | .hbm, ⟨90, _⟩ => ⟨S_, .f32⟩
  | .hbm, ⟨91, _⟩ => ⟨S16384x4836, .f32⟩
  | .hbm, ⟨92, _⟩ => ⟨S16384x4836, .f32⟩
  | .hbm, ⟨93, _⟩ => ⟨S16384x4836, .i1⟩
  | .hbm, ⟨94, _⟩ => ⟨S16384x4836, .f32⟩
  | .hbm, ⟨95, _⟩ => ⟨S16384x4836, .i1⟩
  | .hbm, ⟨96, _⟩ => ⟨S16384x4836, .f32⟩
  | .hbm, ⟨97, _⟩ => ⟨S16384x4836, .i1⟩
  | .hbm, ⟨98, _⟩ => ⟨S16384x4836, .f32⟩
  | .hbm, ⟨99, _⟩ => ⟨S_, .f32⟩
  | .hbm, ⟨100, _⟩ => ⟨S16384x256, .f32⟩
  | .hbm, ⟨101, _⟩ => ⟨S_, .i32⟩
  | .hbm, ⟨102, _⟩ => ⟨S4836, .i32⟩
  | .hbm, ⟨103, _⟩ => ⟨S4836, .i1⟩
  | .hbm, ⟨104, _⟩ => ⟨S_, .i32⟩
  | .hbm, ⟨105, _⟩ => ⟨S4836, .i32⟩
  | .hbm, ⟨106, _⟩ => ⟨S4836, .i32⟩
  | .hbm, ⟨107, _⟩ => ⟨S4836, .i32⟩
  | .hbm, ⟨108, _⟩ => ⟨S4836x1, .i32⟩
  | .hbm, ⟨109, _⟩ => ⟨S16384x256, .f32⟩
  | .hbm, ⟨110, _⟩ => ⟨S16384x256, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_call0_cst : Ref sig .tc := ⟨.hbm, 28, rfl⟩
abbrev main_call0_v0 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_call1_v0 : Ref sig .tc := ⟨.hbm, 42, rfl⟩
abbrev main_v24 : Ref sig .tc := ⟨.hbm, 43, rfl⟩
abbrev main_call2_v0 : Ref sig .tc := ⟨.hbm, 44, rfl⟩
abbrev main_v25 : Ref sig .tc := ⟨.hbm, 45, rfl⟩
abbrev main_call3_v0 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_11 : Ref sig .tc := ⟨.hbm, 76, rfl⟩
abbrev main_v49 : Ref sig .tc := ⟨.hbm, 77, rfl⟩
abbrev main_v50 : Ref sig .tc := ⟨.hbm, 78, rfl⟩
abbrev main_call4_cst : Ref sig .tc := ⟨.hbm, 79, rfl⟩
abbrev main_call4_v0 : Ref sig .tc := ⟨.hbm, 80, rfl⟩
abbrev main_v51 : Ref sig .tc := ⟨.hbm, 81, rfl⟩
abbrev main_c_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev main_call5_v0 : Ref sig .tc := ⟨.hbm, 93, rfl⟩
abbrev main_v60 : Ref sig .tc := ⟨.hbm, 94, rfl⟩
abbrev main_call6_v0 : Ref sig .tc := ⟨.hbm, 95, rfl⟩
abbrev main_v61 : Ref sig .tc := ⟨.hbm, 96, rfl⟩
abbrev main_call7_v0 : Ref sig .tc := ⟨.hbm, 97, rfl⟩
abbrev main_v62 : Ref sig .tc := ⟨.hbm, 98, rfl⟩
abbrev main_cst_15 : Ref sig .tc := ⟨.hbm, 99, rfl⟩
abbrev main_v63 : Ref sig .tc := ⟨.hbm, 100, rfl⟩
abbrev main_c_16 : Ref sig .tc := ⟨.hbm, 101, rfl⟩
abbrev main_v64 : Ref sig .tc := ⟨.hbm, 102, rfl⟩
abbrev main_v65 : Ref sig .tc := ⟨.hbm, 103, rfl⟩
abbrev main_c_17 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]

class Facts₀ : Prop where
  bcast_S_S1971 : S_.BroadcastsInDim S1971 (![] : Fin 0 → Fin S1971.rank)
  bcast_S1971_S1971x1_0 : S1971.BroadcastsInDim S1971x1 (![0] : Fin 1 → Fin S1971x1.rank)
  bcast_S1971_S1x1971_1 : S1971.BroadcastsInDim S1x1971 (![1] : Fin 1 → Fin S1x1971.rank)
  bcast_S1x1971_S16384x1971_0_1 : S1x1971.BroadcastsInDim S16384x1971 (![0, 1] : Fin 2 → Fin S16384x1971.rank)
  bcast_S_S16384x1971 : S_.BroadcastsInDim S16384x1971 (![] : Fin 0 → Fin S16384x1971.rank)
  bcast_S1971_S16384x1971_1 : S1971.BroadcastsInDim S16384x1971 (![1] : Fin 1 → Fin S16384x1971.rank)
  bcast_S_S16384x128 : S_.BroadcastsInDim S16384x128 (![] : Fin 0 → Fin S16384x128.rank)
  concatenates_S16384x512_S16384x128_S16384x640_d1 : Shape.Concatenates [S16384x512, S16384x128] S16384x640 1
  bcast_S_S4836 : S_.BroadcastsInDim S4836 (![] : Fin 0 → Fin S4836.rank)
  bcast_S4836_S4836x1_0 : S4836.BroadcastsInDim S4836x1 (![0] : Fin 1 → Fin S4836x1.rank)
  bcast_S4836_S1x4836_1 : S4836.BroadcastsInDim S1x4836 (![1] : Fin 1 → Fin S1x4836.rank)
  bcast_S1x4836_S16384x4836_0_1 : S1x4836.BroadcastsInDim S16384x4836 (![0, 1] : Fin 2 → Fin S16384x4836.rank)
  bcast_S_S16384x4836 : S_.BroadcastsInDim S16384x4836 (![] : Fin 0 → Fin S16384x4836.rank)
  bcast_S4836_S16384x4836_1 : S4836.BroadcastsInDim S16384x4836 (![1] : Fin 1 → Fin S16384x4836.rank)
  bcast_S_S16384x256 : S_.BroadcastsInDim S16384x256 (![] : Fin 0 → Fin S16384x256.rank)
  gather_S16384x512_S1971x1_S16384x1971_0_1_n_n_1_1_163841_wf : GatherDims.WF S16384x512 S1971x1 S16384x1971 [0] [1] [] [1] [] 1 ![16384, 1]
  scatter_S16384x128_S1971x1_S16384x1971_0_1_1_1_wf : ScatterDims.WF S16384x128 S1971x1 S16384x1971 [0] [1] [1] 1
  gather_S16384x640_S4836x1_S16384x4836_0_1_n_n_1_1_163841_wf : GatherDims.WF S16384x640 S4836x1 S16384x4836 [0] [1] [] [1] [] 1 ![16384, 1]
  scatter_S16384x256_S4836x1_S16384x4836_0_1_1_1_wf : ScatterDims.WF S16384x256 S4836x1 S16384x4836 [0] [1] [1] 1

variable [Facts₀]

def gather_S16384x512_S1971x1_S16384x1971_0_1_n_n_1_1_163841 : GatherDims S16384x512 S1971x1 S16384x1971 where
  offsetDims := [0]
  collapsedSliceDims := [1]
  operandBatchingDims := []
  startIndicesBatchingDims := []
  startIndexMap := [1]
  indexVectorDim := 1
  sliceSizes := ![16384, 1]
  wf := gather_S16384x512_S1971x1_S16384x1971_0_1_n_n_1_1_163841_wf
def scatter_S16384x128_S1971x1_S16384x1971_0_1_1_1 : ScatterDims S16384x128 S1971x1 S16384x1971 where
  updateWindowDims := [0]
  insertedWindowDims := [1]
  scatterDimsToOperandDims := [1]
  indexVectorDim := 1
  wf := scatter_S16384x128_S1971x1_S16384x1971_0_1_1_1_wf
def gather_S16384x640_S4836x1_S16384x4836_0_1_n_n_1_1_163841 : GatherDims S16384x640 S4836x1 S16384x4836 where
  offsetDims := [0]
  collapsedSliceDims := [1]
  operandBatchingDims := []
  startIndicesBatchingDims := []
  startIndexMap := [1]
  indexVectorDim := 1
  sliceSizes := ![16384, 1]
  wf := gather_S16384x640_S4836x1_S16384x4836_0_1_n_n_1_1_163841_wf
def scatter_S16384x256_S4836x1_S16384x4836_0_1_1_1 : ScatterDims S16384x256 S4836x1 S16384x4836 where
  updateWindowDims := [0]
  insertedWindowDims := [1]
  scatterDimsToOperandDims := [1]
  indexVectorDim := 1
  wf := scatter_S16384x256_S4836x1_S16384x4836_0_1_1_1_wf

class Facts : Prop extends Facts₀ where

variable [Facts]
-- ==== Proof.Spec.lean ====
/-
  The mathematics of the message-passing layer, with no program in sight.

  One input row `x : Fin 512 → EReal` is pushed through two layers of weighted edges.  An edge `e` of the
  hidden layer reads column `ch e` of the row, multiplies by its weight `wh e`, applies the activation its
  word `ah e` selects, and adds the result into hidden node `rh e`.  An edge of the output layer does the same
  from the concatenation of the row and the hidden nodes (`srcAt`) into output node `ro e`; the output is the
  hyperbolic tangent of each node's sum.

  Two spellings of this are compared.  The SPARSE one (`hidSparse`, `outSparse`) sums, per node, the edges whose
  destination word is that node.  The DENSE one (`hidDense`, `outDense`) is three matrix products against
  selection matrices: a gather matrix whose column `e` is the weight at the row the edge reads and zero
  elsewhere (`selW`), and a scatter matrix whose row `e` is one at the edge's destination and zero elsewhere
  (`hotW`), both padded with edges that read nothing, weigh nothing and land nowhere (`padW`, `padF`).
  `dense_eq_sparse` says the two agree on the extended reals for EVERY choice of the words: a product with a
  zero entry vanishes there (`x * 0 = 0` also at the infinities), so a one-hot sum is its one term, a column
  word outside the row selects nothing on either side, and a padded edge contributes `0 * 0`.
-/
import Idealize.ShloMosaic.PureOps
import Idealize.ShloMosaic.PureOps.Ideal.Laws
import Idealize.ShloMosaic.Lib.ValueIdx

noncomputable section

namespace Cert.Gnn

open Idealize.ShloMosaic

/-- The activation an edge's word selects: 2 the hyperbolic tangent, 3 the positive part, 4 the logistic
    function, anything else the identity. -/
def act (a : BitVec 32) (z : EReal) : EReal :=
  if a = 2#32 then Ideal.tanh z else if a = 3#32 then max z 0 else if a = 4#32 then Ideal.logistic z else z

/-! ## The sparse spelling -/

/-- Column `n` of a row of 512, zero past its end. -/
def colAt (x : Fin 512 → EReal) (n : ℕ) : EReal := if h : n < 512 then x ⟨n, h⟩ else 0

/-- Entry `n` of the row followed by the 128 hidden nodes, zero past the end of both. -/
def srcAt (x : Fin 512 → EReal) (H : Fin 128 → EReal) (n : ℕ) : EReal :=
  if h : n < 512 then x ⟨n, h⟩ else if h' : n - 512 < 128 then H ⟨n - 512, h'⟩ else 0

/-- Hidden node `h`: the sum, over the edges whose destination word is `h`, of the activated weighted column. -/
def hidSparse (x : Fin 512 → EReal) (wh : Fin 1971 → EReal) (rh ch ah : Fin 1971 → BitVec 32) (h : Fin 128) : EReal :=
  ∑ e, if rh e = BitVec.ofNat 32 h.val then act (ah e) (colAt x (ch e).toNat * wh e) else 0

/-- Output node `r`: the hyperbolic tangent of the sum over the edges whose destination word is `r`. -/
def outSparse (x : Fin 512 → EReal) (wh : Fin 1971 → EReal) (wo : Fin 4836 → EReal) (rh ch ah : Fin 1971 → BitVec 32)
    (ro co ao : Fin 4836 → BitVec 32) (r : Fin 256) : EReal :=
  Ideal.tanh (∑ e, if ro e = BitVec.ofNat 32 r.val then
    act (ao e) (srcAt x (hidSparse x wh rh ch ah) (co e).toNat * wo e) else 0)

/-! ## The dense spelling -/

/-- Hidden node `h` as two matrix products: gather by `Sh`, activate, scatter by `Rh`. -/
def hidDense (x : Fin 512 → EReal) (Sh : Fin 512 → Fin 2048 → EReal) (ah : Fin 2048 → BitVec 32)
    (Rh : Fin 2048 → Fin 128 → EReal) (h : Fin 128) : EReal :=
  ∑ e, act (ah e) (∑ k, x k * Sh k e) * Rh e h

/-- Output node `r`: gather from the row by `Sox` and from the hidden nodes by `Soh`, activate, scatter by `Ro`. -/
def outDense (x : Fin 512 → EReal) (Sh : Fin 512 → Fin 2048 → EReal) (ah : Fin 2048 → BitVec 32)
    (Rh : Fin 2048 → Fin 128 → EReal) (Sox : Fin 512 → Fin 4864 → EReal) (Soh : Fin 128 → Fin 4864 → EReal)
    (ao : Fin 4864 → BitVec 32) (Ro : Fin 4864 → Fin 256 → EReal) (r : Fin 256) : EReal :=
  Ideal.tanh (∑ e, act (ao e) ((∑ k, x k * Sox k e) + ∑ h, hidDense x Sh ah Rh h * Soh h e) * Ro e r)

/-! ## The selection matrices -/

/-- A list of `n` words padded to `N` with `fill`. -/
def padW {n N : ℕ} (v : Fin n → BitVec 32) (fill : BitVec 32) (e : Fin N) : BitVec 32 :=
  if h : e.val < n then v ⟨e.val, h⟩ else fill

/-- A list of `n` weights padded to `N` with zero. -/
def padF {n N : ℕ} (v : Fin n → EReal) (e : Fin N) : EReal :=
  if h : e.val < n then v ⟨e.val, h⟩ else 0

/-- Entry `k` of a gather column: the weight `w` where `k` is the word `c`, zero elsewhere. -/
def selW (c : BitVec 32) (w : EReal) (k : ℕ) : EReal := if BitVec.ofNat 32 k = c then w else 0

/-- Entry `r` of a scatter row: one where the word `d` is `r`, zero elsewhere. -/
def hotW (d : BitVec 32) (r : ℕ) : EReal := if d = BitVec.ofNat 32 r then 1 else 0

end Cert.Gnn

end
-- ==== Proof.Windows.lean ====
/-
  The arrays the kernel's one region finds, and the program's arguments as launched, read as plain matrices
  and lists at the extended reals, so that the kernel's value can be stated against the program-free
  definitions of `Spec`: `aX … aRo` are the eight arrays the region's input windows stage (the input rows, then
  the gather matrix, activation words and scatter matrix of the hidden layer, then the two gather matrices,
  activation words and scatter matrix of the output layer), `gX … gAo` the nine arguments.
-/
import proofs.«168213_j89618787598437_1_alg».proof.Proof.Gen.KernelIdeal.Frame
import proofs.«168213_j89618787598437_1_alg».proof.Proof.Spec
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-! ## The arrays the region finds -/

/-- The input rows. -/
def aX (b : Fin 16384) (k : Fin 512) : EReal := (V m c main_arg0 : S16384x512.Idx → EReal) (ix2 b k)
/-- The hidden layer's gather matrix. -/
def aSh (k : Fin 512) (e : Fin 2048) : EReal := (V m c main_v18 : S512x2048.Idx → EReal) (ix2 k e)
/-- The hidden layer's activation words. -/
def aAh (e : Fin 2048) : BitVec 32 := (V m c main_v4 : S1x2048.Idx → BitVec 32) (ix2 0 e)
/-- The hidden layer's scatter matrix. -/
def aRh (e : Fin 2048) (h : Fin 128) : EReal := (V m c main_v25 : S2048x128.Idx → EReal) (ix2 e h)
/-- The output layer's gather matrix from the input rows. -/
def aSox (k : Fin 512) (e : Fin 4864) : EReal := (V m c main_v32 : S512x4864.Idx → EReal) (ix2 k e)
/-- The output layer's gather matrix from the hidden nodes. -/
def aSoh (h : Fin 128) (e : Fin 4864) : EReal := (V m c main_v43 : S128x4864.Idx → EReal) (ix2 h e)
/-- The output layer's activation words. -/
def aAo (e : Fin 4864) : BitVec 32 := (V m c main_v9 : S1x4864.Idx → BitVec 32) (ix2 0 e)
/-- The output layer's scatter matrix. -/
def aRo (e : Fin 4864) (r : Fin 256) : EReal := (V m c main_v50 : S4864x256.Idx → EReal) (ix2 e r)

/-! ## The arguments as launched -/

/-- The input rows. -/
def gX (b : Fin 16384) (k : Fin 512) : EReal := (m ((c : Thread nD τ).loc main_arg0) : S16384x512.Idx → EReal) (ix2 b k)
/-- The hidden edges' weights. -/
def gWh (e : Fin 1971) : EReal := (m ((c : Thread nD τ).loc main_arg1) : S1971.Idx → EReal) (ix1 e)
/-- The output edges' weights. -/
def gWo (e : Fin 4836) : EReal := (m ((c : Thread nD τ).loc main_arg2) : S4836.Idx → EReal) (ix1 e)
/-- The hidden edges' destination words. -/
def gRh (e : Fin 1971) : BitVec 32 := (m ((c : Thread nD τ).loc main_arg3) : S1971.Idx → BitVec 32) (ix1 e)
/-- The hidden edges' source-column words. -/
def gCh (e : Fin 1971) : BitVec 32 := (m ((c : Thread nD τ).loc main_arg4) : S1971.Idx → BitVec 32) (ix1 e)
/-- The hidden edges' activation words. -/
def gAh (e : Fin 1971) : BitVec 32 := (m ((c : Thread nD τ).loc main_arg5) : S1971.Idx → BitVec 32) (ix1 e)
/-- The output edges' destination words. -/
def gRo (e : Fin 4836) : BitVec 32 := (m ((c : Thread nD τ).loc main_arg6) : S4836.Idx → BitVec 32) (ix1 e)
/-- The output edges' source-column words. -/
def gCo (e : Fin 4836) : BitVec 32 := (m ((c : Thread nD τ).loc main_arg7) : S4836.Idx → BitVec 32) (ix1 e)
/-- The output edges' activation words. -/
def gAo (e : Fin 4836) : BitVec 32 := (m ((c : Thread nD τ).loc main_arg8) : S4836.Idx → BitVec 32) (ix1 e)

end Cert.KernelIdeal.Hand

end
-- ==== Proof.DenseSparse.lean ====
/-
  The dense spelling of the message-passing layer equals the sparse one (`dense_eq_sparse`), on the extended
  reals and for every choice of the index and activation words.

  Three facts carry it.  A row against a gather column is one product: the column is the edge's weight at the
  position its word names and zero elsewhere, and a product with zero vanishes on the extended reals also at
  the infinities (`sum_selW`); when the word names no position the sum is empty of non-zero terms.  An edge
  of the output layer meets exactly one of its two gather matrices, the second being indexed by the word
  shifted down by the row's length, with the shift read modulo `2 ^ 32` (`gather_src`).  And a padded edge lands
  nowhere: its destination word, all ones, is no node, so its scatter row is zero and the sum over the padded
  list is the sum over the list (`sum_pad`, `hotW_fill`).
-/
import proofs.«168213_j89618787598437_1_alg».proof.Proof.Spec

noncomputable section

namespace Cert.Gnn

open Idealize.ShloMosaic

/-! ## One-hot sums -/

/-- A word below `2 ^ 32` is recovered from its natural number. -/
theorem ofNat_eq_iff {k : ℕ} (hk : k < 2 ^ 32) (c : BitVec 32) : BitVec.ofNat 32 k = c ↔ k = c.toNat := by
  constructor
  · intro h; rw [← h, BitVec.toNat_ofNat, Nat.mod_eq_of_lt hk]
  · intro h; rw [h, BitVec.ofNat_toNat, BitVec.setWidth_eq]

/-- A row against a gather column is the column's weight times the one entry its word selects, nothing when
    the word is no position of the row: every other product has a zero factor. -/
theorem sum_selW {K : ℕ} (hK : K ≤ 2 ^ 32) (x : Fin K → EReal) (c : BitVec 32) (w : EReal) :
    ∑ k : Fin K, x k * selW c w k.val = (if h : c.toNat < K then x ⟨c.toNat, h⟩ else 0) * w := by
  by_cases h : c.toNat < K
  · rw [dif_pos h, Finset.sum_eq_single (⟨c.toNat, h⟩ : Fin K)]
    · unfold selW; rw [if_pos ((ofNat_eq_iff (by omega) c).2 rfl)]
    · intro k _ hk
      unfold selW
      rw [if_neg, mul_zero]
      intro hkc
      exact hk (Fin.ext ((ofNat_eq_iff (lt_of_lt_of_le k.isLt hK) c).1 hkc))
    · intro hn; exact absurd (Finset.mem_univ _) hn
  · rw [dif_neg h, zero_mul]
    apply Finset.sum_eq_zero
    intro k _
    unfold selW
    rw [if_neg, mul_zero]
    intro hkc
    have := (ofNat_eq_iff (lt_of_lt_of_le k.isLt hK) c).1 hkc
    exact h (this ▸ k.isLt)

/-- A sum over a padded list whose padding contributes nothing is the sum over the list. -/
theorem sum_pad {n N : ℕ} (hn : n ≤ N) (g : Fin N → EReal) (hz : ∀ e : Fin N, n ≤ e.val → g e = 0) :
    ∑ e, g e = ∑ e : Fin n, g (Fin.castLE hn e) := by
  rw [← Finset.sum_subset (Finset.subset_univ (Finset.univ.map (Fin.castLEEmb hn)))]
  · rw [Finset.sum_map]; rfl
  · intro e _ he
    apply hz
    by_contra h
    rw [not_le] at h
    exact he (Finset.mem_map.2 ⟨⟨e.val, h⟩, Finset.mem_univ _, Fin.ext rfl⟩)

theorem padW_castLE {n N : ℕ} (hn : n ≤ N) (v : Fin n → BitVec 32) (fill : BitVec 32) (e : Fin n) :
    padW v fill (Fin.castLE hn e) = v e := by
  unfold padW; rw [dif_pos (by simpa using e.isLt)]; rfl

theorem padF_castLE {n N : ℕ} (hn : n ≤ N) (v : Fin n → EReal) (e : Fin n) :
    padF v (Fin.castLE hn e : Fin N) = v e := by
  unfold padF; rw [dif_pos (by simpa using e.isLt)]; rfl

theorem padW_of_le {n N : ℕ} (v : Fin n → BitVec 32) (fill : BitVec 32) (e : Fin N) (h : n ≤ e.val) :
    padW v fill e = fill := by
  unfold padW; rw [dif_neg (by omega)]

/-- The all-ones word is no node below `2 ^ 31`: a padded edge lands nowhere. -/
theorem hotW_fill (r : ℕ) (hr : r < 4294967295) : hotW 4294967295#32 r = 0 := by
  unfold hotW
  rw [if_neg]
  intro h
  have := congrArg BitVec.toNat h
  rw [BitVec.toNat_ofNat] at this
  norm_num at this
  omega

theorem mul_hotW (a : EReal) (d : BitVec 32) (r : ℕ) :
    a * hotW d r = if d = BitVec.ofNat 32 r then a else 0 := by
  unfold hotW; split_ifs <;> simp

/-! ## The two spellings agree -/

/-- The hidden nodes: gathering by the padded selection columns, activating and scattering by the padded
    destination rows gives, per node, the sum of its own edges. -/
theorem hidDense_eq (x : Fin 512 → EReal) (wh : Fin 1971 → EReal) (rh ch ah : Fin 1971 → BitVec 32) (h : Fin 128) :
    hidDense x (fun k e => selW (padW ch 4294967295#32 e) (padF wh e) k.val) (padW ah 0#32)
      (fun e h => hotW (padW rh 4294967295#32 e) h.val) h
      = hidSparse x wh rh ch ah h := by
  unfold hidDense hidSparse
  rw [sum_pad (by decide : 1971 ≤ 2048)]
  · apply Finset.sum_congr rfl
    intro e _
    dsimp only
    rw [sum_selW (by decide) x, padW_castLE, padW_castLE, padW_castLE, padF_castLE, mul_hotW]
    rfl
  · intro e he
    dsimp only
    rw [padW_of_le rh _ e he, hotW_fill _ (by have := h.isLt; omega), mul_zero]

/-- A column word of the concatenation reads the row through the first gather matrix and the hidden nodes
    through the second (whose words are shifted down by the row's length): exactly one of the two is met. -/
theorem gather_src (x : Fin 512 → EReal) (H : Fin 128 → EReal) (c : BitVec 32) (w : EReal) :
    (∑ k : Fin 512, x k * selW c w k.val) + ∑ h : Fin 128, H h * selW (c - 512#32) w h.val = srcAt x H c.toNat * w := by
  rw [sum_selW (by decide) x, sum_selW (by decide) H]
  have hsub : (c - 512#32).toNat = (2 ^ 32 - 512 + c.toNat) % 2 ^ 32 := by
    rw [BitVec.toNat_sub]; rfl
  have hc := c.isLt
  unfold srcAt
  by_cases h1 : c.toNat < 512
  · have h2 : ¬ (c - 512#32).toNat < 128 := by rw [hsub]; omega
    rw [dif_pos h1, dif_neg h2, dif_pos h1, zero_mul, add_zero]
  · rw [dif_neg h1, dif_neg h1, zero_mul, zero_add]
    have h3 : (c - 512#32).toNat = c.toNat - 512 := by rw [hsub]; omega
    by_cases h2 : c.toNat - 512 < 128
    · rw [dif_pos (by rw [h3]; exact h2), dif_pos h2]
      congr 2
      exact Fin.ext h3
    · rw [dif_neg (by rw [h3]; exact h2), dif_neg h2]

/-- The whole layer: the dense spelling over the padded selection matrices is the sparse one, for every
    choice of the words. -/
theorem dense_eq_sparse (x : Fin 512 → EReal) (wh : Fin 1971 → EReal) (wo : Fin 4836 → EReal)
    (rh ch ah : Fin 1971 → BitVec 32) (ro co ao : Fin 4836 → BitVec 32) (r : Fin 256) :
    outDense x (fun k e => selW (padW ch 4294967295#32 e) (padF wh e) k.val) (padW ah 0#32)
      (fun e h => hotW (padW rh 4294967295#32 e) h.val)
      (fun k e => selW (padW co 4294967295#32 e) (padF wo e) k.val)
      (fun h e => selW (padW co 4294967295#32 e - 512#32) (padF wo e) h.val) (padW ao 0#32)
      (fun e r => hotW (padW ro 4294967295#32 e) r.val) r
      = outSparse x wh wo rh ch ah ro co ao r := by
  unfold outDense outSparse
  congr 1
  rw [sum_pad (by decide : 4836 ≤ 4864)]
  · apply Finset.sum_congr rfl
    intro e _
    have hH : hidDense x (fun k e => selW (padW ch 4294967295#32 e) (padF wh e) k.val) (padW ah 0#32)
        (fun e h => hotW (padW rh 4294967295#32 e) h.val) = hidSparse x wh rh ch ah :=
      funext fun h => hidDense_eq x wh rh ch ah h
    dsimp only
    rw [gather_src x _ _ _, hH, padW_castLE, padW_castLE, padW_castLE, padF_castLE, mul_hotW]
  · intro e he
    dsimp only
    rw [padW_of_le ro _ e he, hotW_fill _ (by have := r.isLt; omega), mul_zero]

end Cert.Gnn

end
-- ==== Proof.PreDecode.lean ====
/-
  What the precondition says of the index words.  The predicate is a conjunction of `all`-reductions, one per
  stated bound, that comes out true; a conjunction of truth values is true only when each conjunct is, an
  `all` only when every element is, and a signed comparison of words that is true is the comparison of their
  integer values.  So every source-column word of the hidden layer lies in [0, 512), every source-column word
  of the output layer in [0, 640) (the input row followed by the 128 hidden nodes), and every destination word
  is non-negative.
-/
import proofs.«168213_j89618787598437_1_alg».proof.Pre_finite_inputs
import Idealize.ShloMosaic.Lib.ReduceAll
import Idealize.ShloMosaic.Lib.ValueIdx

noncomputable section

namespace Cert.Pre_finite_inputs.Hand

open Idealize.ShloMosaic Idealize.ShloMosaic.ValueIdx Cert.Pre_finite_inputs

variable [Facts]

instance : Subsingleton S_.Idx := ⟨fun a b => funext fun d => d.elim0⟩

/-- The bounds the precondition states of the index words, read back from the predicate being true. -/
theorem bounds_of_pre {F : FTy → Type} [FloatOps F] (a0 : FVec F S16384x512 .f32) (a1 : FVec F S1971 .f32)
    (a2 : FVec F S4836 .f32) (a3 a4 a5 : IVec S1971 32) (a6 a7 a8 : IVec S4836 32)
    (h : fn (F := F) a0 a1 a2 a3 a4 a5 a6 a7 a8 = fun _ => 1#1) :
    (∀ i, 0 ≤ (a4 i).toInt ∧ (a4 i).toInt < 512) ∧ (∀ i, 0 ≤ (a7 i).toInt ∧ (a7 i).toInt < 640)
      ∧ (∀ i, 0 ≤ (a3 i).toInt) ∧ (∀ i, 0 ≤ (a6 i).toInt) := by
  have e := congrFun h ix0
  dsimp only [fn, fn_part1, fn_part2] at e
  simp only [andi, IntOp.andi_eq_one] at e
  obtain ⟨⟨⟨⟨⟨⟨_, h1⟩, h2⟩, h3⟩, h4⟩, h5⟩, h6⟩ := e
  refine ⟨fun i => ⟨?_, ?_⟩, fun i => ⟨?_, ?_⟩, fun i => ?_, fun i => ?_⟩
  · exact IntOp.cmpi_sge.1 (Host.reduce_andi_all _ _ _ _ _ h1 i)
  · exact IntOp.cmpi_slt.1 (Host.reduce_andi_all _ _ _ _ _ h2 i)
  · exact IntOp.cmpi_sge.1 (Host.reduce_andi_all _ _ _ _ _ h3 i)
  · exact IntOp.cmpi_slt.1 (Host.reduce_andi_all _ _ _ _ _ h4 i)
  · exact IntOp.cmpi_sge.1 (Host.reduce_andi_all _ _ _ _ _ h5 i)
  · exact IntOp.cmpi_sge.1 (Host.reduce_andi_all _ _ _ _ _ h6 i)

end Cert.Pre_finite_inputs.Hand

end
-- ==== Proof.MatmulEntry.lean ====
/-
  A matrix product read one entry at a time.

  The kernel's matrix unit multiplies an M×K block by a K×N block and adds the result onto an accumulator.  When the
  accumulator is the all-zero block, entry (a, b) of the result is the plain textbook sum over the contracted
  coordinate c of A(a, c) · B(c, b): the dimension numbers say that the left operand is contracted on its second
  axis and the right operand on its first, so the contraction's one-axis index set is just the range of c.
-/
import Idealize.ShloMosaic.Lib.ValueIdx
import Idealize.ShloMosaic.PureOps.Ideal.Laws

noncomputable section

namespace Cert.KernelIdeal.Hand

open Idealize.ShloMosaic Idealize.ShloMosaic.ValueIdx

/-- A product of an M×K by a K×N matrix into the zero accumulator, read at (a, b): the sum over the contracted
    coordinate of the products of the entries. -/
theorem matmul_zero_at {M K N : Nat} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![M, K]⟩ φ₁) (B : FVec Ideal ⟨2, ![K, N]⟩ φ₂) (a : Fin M) (b : Fin N) :
    FloatOps.matmul d prec A B (constant ⟨2, ![M, N]⟩ .f32 0x00000000#32) (ix2 a b) = ∑ c : Fin K, A (ix2 a c) * B (ix2 c b) := by
  have hr : d.contr.rank = 1 := by rw [d.rank_contr, hlc]; rfl
  -- the one element of a one-element list of axes
  have hget : ∀ (l : List (Fin 2)) (x : Fin 2) (hl : l = [x]) (hp : 0 < l.length), l[0] = x :=
    fun l x hl hp => by subst hl; rfl
  -- the contraction's one axis has the extent of the left operand's second axis
  have hs : d.contr.size ⟨0, by omega⟩ = K := by
    have h := d.size_contr 0 (by rw [hlc]; exact Nat.one_pos)
    rw [hget _ 1 hlc] at h
    exact h
  -- equal positions of an index give equal coordinates
  have key : ∀ (p q : Nat) (hp : p < 2) (hq : q < 2), p = q →
      ((ix2 a b : (⟨2, ![M, N]⟩ : Shape).Idx) ⟨p, hp⟩).val = ((ix2 a b : (⟨2, ![M, N]⟩ : Shape).Idx) ⟨q, hq⟩).val :=
    fun p q hp hq h => by subst h; rfl
  rw [Ideal.matmul_constant_zero_apply, ← Equiv.sum_comp (contrEquiv1 d K hr hs).symm]
  refine Finset.sum_congr rfl fun c _ => ?_
  have c2 := contrEquiv1_symm_val d K hr hs c
  -- the left operand is read at (a, c): its row is the result's row, its column the contracted coordinate
  have l2 : d.lhsIdx (ix2 a b) ((contrEquiv1 d K hr hs).symm c) = ix2 a c := by
    funext ax; apply Fin.ext
    match ax with
    | ⟨0, _⟩ =>
      unfold DotDims.lhsIdx
      rw [dif_neg (by rw [hlb]; exact List.not_mem_nil), dif_pos (by rw [hln]; exact List.mem_singleton.mpr rfl)]
      exact key _ 0 _ (by decide) (by simp [hlb, hln])
    | ⟨1, _⟩ => exact (d.lhsIdx_val_of_single hlc _ _).trans c2
  -- the right operand is read at (c, b): its row is the contracted coordinate, its column the result's column
  have r2 : d.rhsIdx (ix2 a b) ((contrEquiv1 d K hr hs).symm c) = ix2 c b := by
    funext ax; apply Fin.ext
    match ax with
    | ⟨0, _⟩ => exact (d.rhsIdx_val_of_single hrc _ _).trans c2
    | ⟨1, _⟩ =>
      unfold DotDims.rhsIdx
      rw [dif_neg (by rw [hrb]; exact List.not_mem_nil), dif_pos (by rw [hrn]; exact List.mem_singleton.mpr rfl)]
      exact key _ 1 _ (by decide) (by simp [hlb, hln, hrn])
  rw [l2, r2]

end Cert.KernelIdeal.Hand

end
-- ==== Proof.BodyValue.lean ====
/-
  One entry of what the kernel's body stores, as the dense layer of one input row.

  The body holds a block of 128 input rows and the seven whole matrices and word lists of the two layers.  It
  multiplies the rows by the hidden layer's gather matrix, applies to every column the activation that column's
  word names, multiplies by the hidden layer's scatter matrix; it multiplies the rows by the output layer's first
  gather matrix and the hidden nodes by its second, adds the two, activates column by column again, multiplies by
  the output layer's scatter matrix and takes the hyperbolic tangent.  Every product goes into a zero accumulator,
  so each entry is a plain sum over the contracted coordinate; the narrowing of a float to a shorter format is the
  identity on extended reals; the activation is spelt as three nested selections on "the word is 2", "is 3",
  "is 4", which is the activation function of the specification read as an if-chain.  Read at row p and column r
  the stored block is therefore the specification's dense layer of row p.
-/
import proofs.«168213_j89618787598437_1_alg».proof.Proof.Gen.KernelIdeal.Skeleton
import proofs.«168213_j89618787598437_1_alg».proof.Proof.Spec
import proofs.«168213_j89618787598437_1_alg».proof.Proof.MatmulEntry
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-- The three nested selections on "the word is 2", "is 3", "is 4" are the activation the word names. -/
theorem select_chain_eq_act (w : BitVec 32) (z : EReal) :
    Scalar.select (IntOp.cmpi .eq w 2#32) (Ideal.tanh z)
      (Scalar.select (IntOp.cmpi .eq w 3#32) (max z (Scalar.ofBits (F := Ideal) .f32 0x00000000#32))
        (Scalar.select (IntOp.cmpi .eq w 4#32) (Ideal.logistic z) z)) = Cert.Gnn.act w z := by
  have ob : ∀ b : Bool, BitVec.ofBool b = 1#1 ↔ b = true := fun b => by cases b <;> decide
  have e : ∀ v : BitVec 32, (IntOp.cmpi .eq w v = 1) = (w = v) := fun v => propext (by
    show BitVec.ofBool (w == v) = 1#1 ↔ w = v
    rw [ob, beq_iff_eq])
  have z0 : Scalar.ofBits (F := Ideal) .f32 0x00000000#32 = 0 := Ideal.ofBits_zero_f32
  unfold Cert.Gnn.act Scalar.select
  simp only [e, z0]

/-- A one-row list of words laid along every row of a block reads, at (p, e), the list's word e. -/
theorem row_words_at {R C : Nat} (x : IVec ⟨2, ![1, C]⟩ 32) (h : (⟨2, ![1, C]⟩ : Shape).Broadcasts ⟨2, ![R, C]⟩)
    (p : Fin R) (e : Fin C) : broadcastTo ⟨2, ![R, C]⟩ x h (ix2 p e) = x (ix2 0 e) :=
  broadcastTo_apply x h (ix2 p e) (ix2 0 e) (fun a => by
    match a with
    | ⟨0, _⟩ => rfl
    | ⟨1, _⟩ =>
      show e.val = if C = 1 then 0 else e.val
      split
      · have := e.isLt; omega
      · rfl)

/-- The output layer's activation words reach the last stage unchanged. -/
theorem pay3_eq (x6 : Vec Ideal S1x4864 .i32) : k0_pay3 (F := Ideal) x6 = x6 := by
  unfold k0_pay3
  simp only [shapeCast_self]

/-- Entry (p, e) of the block the output layer activates: the row's gather by the first matrix plus the gather of
    the row's hidden nodes by the second. -/
theorem pay2_at (x0 : Vec Ideal S128x512 .f32) (x1 : Vec Ideal S512x2048 .bf16) (x2 : Vec Ideal S1x2048 .i32)
    (x3 : Vec Ideal S2048x128 .bf16) (x4 : Vec Ideal S512x4864 .bf16) (x5 : Vec Ideal S128x4864 .bf16)
    (p : Fin 128) (e : Fin 4864) :
    k0_pay2 (F := Ideal) x0 x1 x2 x3 x4 x5 (ix2 p e)
      = (∑ k : Fin 512, x0 (ix2 p k) * x4 (ix2 k e))
        + ∑ h : Fin 128, Cert.Gnn.hidDense (fun k => x0 (ix2 p k)) (fun k e => x1 (ix2 k e)) (fun e => x2 (ix2 0 e))
            (fun e h => x3 (ix2 e h)) h * x5 (ix2 h e) := by
  unfold k0_pay2
  simp only [shapeCast_self]
  refine (addf_apply _ _ _).trans ?_
  refine congrArg₂ (· + ·) ?_ ?_
  · exact matmul_zero_at (φ₁ := .bf16) (φ₂ := .bf16) dot_S128x512_S512x4864_S128x4864_1_0_0_1_n_n rfl rfl rfl rfl rfl rfl none _ x4 p e
  · refine (matmul_zero_at (φ₁ := .bf16) (φ₂ := .bf16) dot_S128x128_S128x4864_S128x4864_1_0_0_1_n_n rfl rfl rfl rfl rfl rfl none _ x5 p e).trans ?_
    refine Finset.sum_congr rfl fun h _ => congrArg (· * x5 (ix2 h e)) ?_
    refine (matmul_zero_at (φ₁ := .bf16) (φ₂ := .bf16) dot_S128x2048_S2048x128_S128x128_1_0_0_1_n_n rfl rfl rfl rfl rfl rfl none _ x3 p h).trans ?_
    unfold Cert.Gnn.hidDense
    refine Finset.sum_congr rfl fun e' _ => congrArg (· * x3 (ix2 e' h)) ?_
    have hw : broadcastTo S128x2048 x2 broadcasts_S1x2048_S128x2048 (ix2 p e') = x2 (ix2 0 e') :=
      row_words_at x2 broadcasts_S1x2048_S128x2048 p e'
    have hz : matmul (F := Ideal) dot_S128x512_S512x2048_S128x2048_1_0_0_1_n_n none (truncf .bf16 x0 bitsLt_bf16_f32) x1
        (constant S128x2048 .f32 0x00000000#32) (ix2 p e') = ∑ k : Fin 512, x0 (ix2 p k) * x1 (ix2 k e') :=
      matmul_zero_at (φ₁ := .bf16) (φ₂ := .bf16) dot_S128x512_S512x2048_S128x2048_1_0_0_1_n_n rfl rfl rfl rfl rfl rfl none
        (truncf .bf16 x0 bitsLt_bf16_f32) x1 p e'
    exact (select_chain_eq_act _ _).trans (congrArg₂ Cert.Gnn.act hw hz)

/-- Entry (p, r) of the stored block from the activated block's inputs: the hyperbolic tangent of the scatter of
    the activated columns. -/
theorem pay1_at (v33 : FVec Ideal S128x4864 .f32) (v36 : IVec S1x4864 32) (x7 : Vec Ideal S4864x256 .bf16)
    (p : Fin 128) (r : Fin 256) :
    k0_pay1 (F := Ideal) v33 v36 x7 (ix2 p r)
      = Ideal.tanh (∑ e : Fin 4864, Cert.Gnn.act (v36 (ix2 0 e)) (v33 (ix2 p e)) * x7 (ix2 e r)) := by
  unfold k0_pay1
  simp only [shapeCast_self]
  show Ideal.tanh _ = Ideal.tanh _
  refine congrArg Ideal.tanh ?_
  refine (matmul_zero_at (φ₁ := .bf16) (φ₂ := .bf16) dot_S128x4864_S4864x256_S128x256_1_0_0_1_n_n rfl rfl rfl rfl rfl rfl none _ x7 p r).trans ?_
  refine Finset.sum_congr rfl fun e _ => congrArg (· * x7 (ix2 e r)) ?_
  have hw : broadcastTo S128x4864 v36 broadcasts_S1x4864_S128x4864 (ix2 p e) = v36 (ix2 0 e) :=
    row_words_at v36 broadcasts_S1x4864_S128x4864 p e
  exact (select_chain_eq_act _ _).trans (congrArg₂ Cert.Gnn.act hw rfl)

/-- THE BODY AT AN ENTRY: what the body stores at row p, column r of its block is the dense layer of row p of the
    block of input rows, over the seven whole matrices and word lists. -/
theorem body_at (x0 : Vec Ideal S128x512 .f32) (x1 : Vec Ideal S512x2048 .bf16) (x2 : Vec Ideal S1x2048 .i32)
    (x3 : Vec Ideal S2048x128 .bf16) (x4 : Vec Ideal S512x4864 .bf16) (x5 : Vec Ideal S128x4864 .bf16)
    (x6 : Vec Ideal S1x4864 .i32) (x7 : Vec Ideal S4864x256 .bf16) (p : Fin 128) (r : Fin 256) :
    k0_pay1 (F := Ideal) (k0_pay2 x0 x1 x2 x3 x4 x5) (k0_pay3 x6) x7 (ix2 p r)
      = Cert.Gnn.outDense (fun k => x0 (ix2 p k)) (fun k e => x1 (ix2 k e)) (fun e => x2 (ix2 0 e))
          (fun e h => x3 (ix2 e h)) (fun k e => x4 (ix2 k e)) (fun h e => x5 (ix2 h e)) (fun e => x6 (ix2 0 e))
          (fun e r => x7 (ix2 e r)) r := by
  rw [pay1_at, pay3_eq]
  unfold Cert.Gnn.outDense
  refine congrArg Ideal.tanh (Finset.sum_congr rfl fun e _ => ?_)
  rw [pay2_at]

end Cert.KernelIdeal.Hand

end
-- ==== Proof.StagedBlocks.lean ====
/-
  What each grid point stages, read off the arrays the region finds.

  The grid has 128 points.  A window's block at a point starts, on each axis, at the point's block index times the
  block's extent.  For the input rows the block index at point t is (t, 0) with blocks of 128 rows, so row p of
  the staged block is row 128·t + p of the array.  For the seven other input windows the block is the whole array
  and the block index is (0, 0) at every point, so the staged block is the array itself, entry by entry.
-/
import proofs.«168213_j89618787598437_1_alg».proof.Proof.Windows
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The block indices at every grid point: the input rows and the output move one block of rows per point, the
    seven other windows stay at block (0, 0). -/
theorem block_indices : ∀ t : Fin cfg0.N,
    win0_0.index t (0 : Fin 2) = t.val ∧ win0_0.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- At point t, row p of the staged block of input rows is row 128·t + p of the input array. -/
theorem rows_block_at (t : Fin cfg0.N) (p : Fin 128) (hb : 128 * t.val + p.val < 16384) :
    (fun k : Fin 512 => (iblk m c 0 t : Vec Ideal S128x512 .f32) (ix2 p k)) = aX m c ⟨128 * t.val + p.val, hb⟩ := by
  funext k
  obtain ⟨i00, i01, -⟩ := block_indices t
  unfold aX
  show V m c main_arg0 (((cfg0.win 0).blk t).view.emb (ix2 p k)) = V m c main_arg0 (ix2 ⟨128 * t.val + p.val, hb⟩ k)
  refine congrArg (V m c main_arg0) (funext fun a => Fin.ext ?_)
  match a with
  | ⟨0, _⟩ => show win0_0.index t (0 : Fin 2) * 128 + 1 * p.val = 128 * t.val + p.val; omega
  | ⟨1, _⟩ => show win0_0.index t (1 : Fin 2) * 512 + 1 * k.val = k.val; omega

/-- At every point the staged hidden-layer gather matrix is the whole array. -/
theorem hidden_gather_block (t : Fin cfg0.N) :
    (fun (k : Fin 512) (e : Fin 2048) => (iblk m c 1 t : Vec Ideal S512x2048 .bf16) (ix2 k e)) = aSh m c := by
  funext k e
  obtain ⟨i00, i01, i80, i81, i10, i11, i20, i21, i30, i31, i40, i41, i50, i51, i60, i61, i70, i71⟩ := block_indices t
  unfold aSh
  show V m c main_v18 (((cfg0.win 1).blk t).view.emb (ix2 k e)) = V m c main_v18 (ix2 k e)
  refine congrArg (V m c main_v18) (funext fun a => Fin.ext ?_)
  match a with
  | ⟨0, _⟩ => show win0_1.index t (0 : Fin 2) * 512 + 1 * k.val = k.val; omega
  | ⟨1, _⟩ => show win0_1.index t (1 : Fin 2) * 2048 + 1 * e.val = e.val; omega

/-- At every point the staged hidden-layer activation words are the whole list. -/
theorem hidden_words_block (t : Fin cfg0.N) :
    (fun (e : Fin 2048) => (iblk m c 2 t : Vec Ideal S1x2048 .i32) (ix2 0 e)) = aAh m c := by
  funext e
  obtain ⟨i00, i01, i80, i81, i10, i11, i20, i21, i30, i31, i40, i41, i50, i51, i60, i61, i70, i71⟩ := block_indices t
  unfold aAh
  show V m c main_v4 (((cfg0.win 2).blk t).view.emb (ix2 0 e)) = V m c main_v4 (ix2 0 e)
  refine congrArg (V m c main_v4) (funext fun a => Fin.ext ?_)
  match a with
  | ⟨0, _⟩ => show win0_2.index t (0 : Fin 2) * 1 + 1 * 0 = 0; omega
  | ⟨1, _⟩ => show win0_2.index t (1 : Fin 2) * 2048 + 1 * e.val = e.val; omega

/-- At every point the staged hidden-layer scatter matrix is the whole array. -/
theorem hidden_scatter_block (t : Fin cfg0.N) :
    (fun (k : Fin 2048) (e : Fin 128) => (iblk m c 3 t : Vec Ideal S2048x128 .bf16) (ix2 k e)) = aRh m c := by
  funext k e
  obtain ⟨i00, i01, i80, i81, i10, i11, i20, i21, i30, i31, i40, i41, i50, i51, i60, i61, i70, i71⟩ := block_indices t
  unfold aRh
  show V m c main_v25 (((cfg0.win 3).blk t).view.emb (ix2 k e)) = V m c main_v25 (ix2 k e)
  refine congrArg (V m c main_v25) (funext fun a => Fin.ext ?_)
  match a with
  | ⟨0, _⟩ => show win0_3.index t (0 : Fin 2) * 2048 + 1 * k.val = k.val; omega
  | ⟨1, _⟩ => show win0_3.index t (1 : Fin 2) * 128 + 1 * e.val = e.val; omega

/-- At every point the staged output-layer gather matrix from the input rows is the whole array. -/
theorem output_gather_rows_block (t : Fin cfg0.N) :
    (fun (k : Fin 512) (e : Fin 4864) => (iblk m c 4 t : Vec Ideal S512x4864 .bf16) (ix2 k e)) = aSox m c := by
  funext k e
  obtain ⟨i00, i01, i80, i81, i10, i11, i20, i21, i30, i31, i40, i41, i50, i51, i60, i61, i70, i71⟩ := block_indices t
  unfold aSox
  show V m c main_v32 (((cfg0.win 4).blk t).view.emb (ix2 k e)) = V m c main_v32 (ix2 k e)
  refine congrArg (V m c main_v32) (funext fun a => Fin.ext ?_)
  match a with
  | ⟨0, _⟩ => show win0_4.index t (0 : Fin 2) * 512 + 1 * k.val = k.val; omega
  | ⟨1, _⟩ => show win0_4.index t (1 : Fin 2) * 4864 + 1 * e.val = e.val; omega

/-- At every point the staged output-layer gather matrix from the hidden nodes is the whole array. -/
theorem output_gather_hidden_block (t : Fin cfg0.N) :
    (fun (k : Fin 128) (e : Fin 4864) => (iblk m c 5 t : Vec Ideal S128x4864 .bf16) (ix2 k e)) = aSoh m c := by
  funext k e
  obtain ⟨i00, i01, i80, i81, i10, i11, i20, i21, i30, i31, i40, i41, i50, i51, i60, i61, i70, i71⟩ := block_indices t
  unfold aSoh
  show V m c main_v43 (((cfg0.win 5).blk t).view.emb (ix2 k e)) = V m c main_v43 (ix2 k e)
  refine congrArg (V m c main_v43) (funext fun a => Fin.ext ?_)
  match a with
  | ⟨0, _⟩ => show win0_5.index t (0 : Fin 2) * 128 + 1 * k.val = k.val; omega
  | ⟨1, _⟩ => show win0_5.index t (1 : Fin 2) * 4864 + 1 * e.val = e.val; omega

/-- At every point the staged output-layer activation words are the whole list. -/
theorem output_words_block (t : Fin cfg0.N) :
    (fun (e : Fin 4864) => (iblk m c 6 t : Vec Ideal S1x4864 .i32) (ix2 0 e)) = aAo m c := by
  funext e
  obtain ⟨i00, i01, i80, i81, i10, i11, i20, i21, i30, i31, i40, i41, i50, i51, i60, i61, i70, i71⟩ := block_indices t
  unfold aAo
  show V m c main_v9 (((cfg0.win 6).blk t).view.emb (ix2 0 e)) = V m c main_v9 (ix2 0 e)
  refine congrArg (V m c main_v9) (funext fun a => Fin.ext ?_)
  match a with
  | ⟨0, _⟩ => show win0_6.index t (0 : Fin 2) * 1 + 1 * 0 = 0; omega
  | ⟨1, _⟩ => show win0_6.index t (1 : Fin 2) * 4864 + 1 * e.val = e.val; omega

/-- At every point the staged output-layer scatter matrix is the whole array. -/
theorem output_scatter_block (t : Fin cfg0.N) :
    (fun (k : Fin 4864) (e : Fin 256) => (iblk m c 7 t : Vec Ideal S4864x256 .bf16) (ix2 k e)) = aRo m c := by
  funext k e
  obtain ⟨i00, i01, i80, i81, i10, i11, i20, i21, i30, i31, i40, i41, i50, i51, i60, i61, i70, i71⟩ := block_indices t
  unfold aRo
  show V m c main_v50 (((cfg0.win 7).blk t).view.emb (ix2 k e)) = V m c main_v50 (ix2 k e)
  refine congrArg (V m c main_v50) (funext fun a => Fin.ext ?_)
  match a with
  | ⟨0, _⟩ => show win0_7.index t (0 : Fin 2) * 4864 + 1 * k.val = k.val; omega
  | ⟨1, _⟩ => show win0_7.index t (1 : Fin 2) * 256 + 1 * e.val = e.val; omega

end Cert.KernelIdeal.Hand

end
-- ==== Proof.KernelValue.lean ====
/-
  From what each grid point writes back to the whole output array.

  Point t of the 128-point grid stages rows 128·t … 128·t + 127 of the input rows and of the output, and the whole
  of each of the seven other input arrays.  The block the body stores, read at row p and column r, is the dense
  layer of the p-th staged input row over the staged matrices and word lists; the p-th staged row at point t is
  row 128·t + p of the input array and the staged matrices and lists are the arrays themselves.  So point t writes
  back exactly rows 128·t … 128·t + 127 of the array whose entry (b, r) is the dense layer of input row b.  Row b
  lies in the block of point b / 128, so the blocks cover the output array, and the array ends holding that
  function everywhere.
-/
import proofs.«168213_j89618787598437_1_alg».proof.Proof.Gen.KernelIdeal.Value
import proofs.«168213_j89618787598437_1_alg».proof.Proof.Windows
import proofs.«168213_j89618787598437_1_alg».proof.Proof.Spec
import proofs.«168213_j89618787598437_1_alg».proof.Proof.BodyValue
import proofs.«168213_j89618787598437_1_alg».proof.Proof.StagedBlocks
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-- The zero offsets of every access of the body, as a constant function. -/
theorem zero_offsets : (![0, 0] : Fin 2 → Nat) = fun _ => 0 := funext fun a => by fin_cases a <;> rfl

/-- The array the run should leave in the output: entry (b, r) is the dense layer of input row b. -/
def denseArray : S16384x256.Idx → EReal := fun i =>
  Cert.Gnn.outDense (aX m c ⟨(i 0).val, idx2_lt0 i⟩) (aSh m c) (aAh m c) (aRh m c) (aSox m c) (aSoh m c) (aAo m c) (aRo m c)
    ⟨(i 1).val, idx2_lt1 i⟩

/-- The dense layer depends on its eight arguments only through their values. -/
theorem outDense_congr {x x' : Fin 512 → EReal} {Sh Sh' : Fin 512 → Fin 2048 → EReal} {ah ah' : Fin 2048 → BitVec 32}
    {Rh Rh' : Fin 2048 → Fin 128 → EReal} {Sox Sox' : Fin 512 → Fin 4864 → EReal} {Soh Soh' : Fin 128 → Fin 4864 → EReal}
    {ao ao' : Fin 4864 → BitVec 32} {Ro Ro' : Fin 4864 → Fin 256 → EReal}
    (h0 : x = x') (h1 : Sh = Sh') (h2 : ah = ah') (h3 : Rh = Rh') (h4 : Sox = Sox') (h5 : Soh = Soh') (h6 : ao = ao')
    (h7 : Ro = Ro') (r : Fin 256) :
    Cert.Gnn.outDense x Sh ah Rh Sox Soh ao Ro r = Cert.Gnn.outDense x' Sh' ah' Rh' Sox' Soh' ao' Ro' r := by
  subst h0 h1 h2 h3 h4 h5 h6 h7; rfl

/-- A block of 128 rows is point t's block of an array G as soon as its entry (p, r) is G's entry (128·t + p, r):
    the output window's block at point t starts at row 128·t and column 0. -/
theorem block_of_rows (t : Fin cfg0.N) (X : Vec Ideal S128x256 .f32) (G : S16384x256.Idx → EReal)
    (h : ∀ (p : Fin 128) (r : Fin 256) (hb : 128 * t.val + p.val < 16384),
      X (ix2 p r) = G (ix2 (⟨128 * t.val + p.val, hb⟩ : Fin 16384) r)) :
    (cfg0.win 8).cut (grid0.coords t) X = ((cfg0.win 8).blk t).view.read (Elt Ideal) G := by
  refine funext fun (j : S128x256.Idx) => ?_
  obtain ⟨p, r, rfl⟩ : ∃ (p : Fin 128) (r : Fin 256), j = ix2 p r := ⟨j 0, j 1, eq_ix2 j⟩
  have hN : cfg0.N = 128 := N_0
  have ht : t.val < 128 := by have := t.isLt; omega
  have hb : 128 * t.val + p.val < 16384 := by have := p.isLt; omega
  obtain ⟨-, -, i80, i81, -⟩ := block_indices t
  have hi : ((cfg0.win 8).blk t).view.emb (ix2 p r) = (ix2 (⟨128 * t.val + p.val, hb⟩ : Fin 16384) r : S16384x256.Idx) := by
    funext a; apply Fin.ext
    match a with
    | ⟨0, _⟩ => show win0_8.index t (0 : Fin 2) * 128 + 1 * p.val = 128 * t.val + p.val; omega
    | ⟨1, _⟩ => show win0_8.index t (1 : Fin 2) * 256 + 1 * r.val = r.val; omega
  show X (ix2 p r) = G (((cfg0.win 8).blk t).view.emb (ix2 p r))
  rw [hi]
  exact h p r hb

/-- WHAT POINT t WRITES BACK is rows 128·t … 128·t + 127 of the dense-layer array. -/
theorem flushed_rows (t : Fin cfg0.N) :
    (dats m 0 c).flushed 8 t = ((cfg0.win 8).blk t).view.read (Elt Ideal) (denseArray m c) := by
  rw [Value.flushed8]
  unfold out0_8
  rw [View.canon_unit_zero zero_offsets]
  simp only [View.ld_unit_zero (S := S128x512) zero_offsets, View.ld_unit_zero (S := S512x2048) zero_offsets,
    View.ld_unit_zero (S := S1x2048) zero_offsets, View.ld_unit_zero (S := S2048x128) zero_offsets,
    View.ld_unit_zero (S := S512x4864) zero_offsets, View.ld_unit_zero (S := S128x4864) zero_offsets,
    View.ld_unit_zero (S := S1x4864) zero_offsets, View.ld_unit_zero (S := S4864x256) zero_offsets]
  refine block_of_rows t
    (k0_pay1 (k0_pay2 (iblk m c 0 t) (iblk m c 1 t) (iblk m c 2 t) (iblk m c 3 t) (iblk m c 4 t) (iblk m c 5 t))
      (k0_pay3 (iblk m c 6 t)) (iblk m c 7 t))
    (denseArray m c) fun p r hb => ?_
  refine (body_at (iblk m c 0 t) (iblk m c 1 t) (iblk m c 2 t) (iblk m c 3 t) (iblk m c 4 t) (iblk m c 5 t)
    (iblk m c 6 t) (iblk m c 7 t) p r).trans ?_
  exact outDense_congr (rows_block_at m c t p hb) (hidden_gather_block m c t) (hidden_words_block m c t)
    (hidden_scatter_block m c t) (output_gather_rows_block m c t) (output_gather_hidden_block m c t)
    (output_words_block m c t) (output_scatter_block m c t) r

/-- An index of the output array is in point t's block iff each coordinate is in the block's range on its axis. -/
theorem mem_rows_block (t : Fin cfg0.N) (i : S16384x256.Idx) :
    i ∈ ((cfg0.win 8).blk t).view.set ↔ ∀ a : Fin 2, win0_8.index t a * S128x256.size a ≤ (i a).val
      ∧ (i a).val < win0_8.index t a * S128x256.size a + S128x256.size a := by
  show i ∈ ((View.whole main_v51).slice (win0_8.rect t)).set ↔ _
  rw [View.set_slice_whole, Rect.mem_set_unit]
  exact Iff.rfl

/-- THE BLOCKS COVER THE ARRAY: row b is in the block of point b / 128. -/
theorem rows_cover (i : S16384x256.Idx) :
    ∃ t : Fin cfg0.N, (cfg0.win 8).flush t = true ∧ i ∈ ((cfg0.win 8).blk t).view.set := by
  have hN : cfg0.N = 128 := N_0
  have hi0 : (i 0).val < 16384 := idx2_lt0 i
  have hi1 : (i 1).val < 256 := idx2_lt1 i
  have hq : (i 0).val / 128 < cfg0.N := by rw [hN]; omega
  refine ⟨⟨(i 0).val / 128, hq⟩, flush0_8 _, ?_⟩
  rw [mem_rows_block]
  obtain ⟨-, -, i80, i81, -⟩ := block_indices ⟨(i 0).val / 128, hq⟩
  have i80' : win0_8.index ⟨(i 0).val / 128, hq⟩ (0 : Fin 2) = (i 0).val / 128 := i80
  intro a
  match a with
  | ⟨0, _⟩ =>
    show win0_8.index ⟨(i 0).val / 128, hq⟩ (0 : Fin 2) * 128 ≤ (i 0).val
      ∧ (i 0).val < win0_8.index ⟨(i 0).val / 128, hq⟩ (0 : Fin 2) * 128 + 128
    omega
  | ⟨1, _⟩ =>
    show win0_8.index ⟨(i 0).val / 128, hq⟩ (1 : Fin 2) * 256 ≤ (i 1).val
      ∧ (i 1).val < win0_8.index ⟨(i 0).val / 128, hq⟩ (1 : Fin 2) * 256 + 256
    omega

/-- THE OUTPUT ARRAY AFTER THE RUN: entry (b, r) is the dense layer of input row b over the seven arrays the other
    input windows stage. -/
theorem final8 (b : Fin 16384) (r : Fin 256) :
    (dats m 0 c).arrAt 8 cfg0.N (ix2 b r)
      = Cert.Gnn.outDense (aX m c b) (aSh m c) (aAh m c) (aRh m c) (aSox m c) (aSoh m c) (aAo m c) (aRo m c) r :=
  congrFun ((dats m 0 c).arrAt_eq_of_cover 8 (denseArray m c) (fun t _ => flushed_rows m c t) (rows_cover)) (ix2 b r)

end Cert.KernelIdeal.Hand

end
-- ==== Proof.HostWindows.lean ====
/-
  What the arrays staged by the kernel's region hold, entry by entry, in terms of the program's arguments.

  Before the region, the host pads each edge list to a whole number of lanes (source and destination words with the
  all-ones word, which names no row or node; weights and activation words with zero), and builds from them the
  selection matrices of `Spec`: a gather matrix compares the row numbers `0 … K-1`, laid down a column, with the
  edges' source words, laid along a row, and keeps the edge's weight where they agree and zero elsewhere (`selW`);
  a scatter matrix compares the edges' destination words, down a column, with the node numbers along a row, and
  reads the comparison's bit as the number one or zero (`hotW`).  For the gather from the hidden nodes the source
  words are first lowered by 512, the length of the input row.  The narrowing of the gather matrices to a shorter
  float format changes nothing on the extended reals.

  Each operation is read at explicit coordinates for arbitrary extents (the two padded lengths 2048 and 4864 are
  instances), then the two builders are read once each, and the eight staged arrays follow.
-/
import proofs.«168213_j89618787598437_1_alg».proof.Proof.Windows
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (c : Dev nD)

/-! ## The host operations read at an index

Each lemma reads one array-building operation at explicit coordinates, for any extents: a list laid out as a
column or as a row of a matrix, a column or a row repeated across a matrix, a list reshaped to one row, and a
list padded at its end. -/

section Generic

variable {α : Type}

/-- A list of `K` entries laid out as a `K × 1` column has entry `k` in row `k`. -/
theorem col_of_list_apply {K : ℕ} (h : (⟨1, ![K]⟩ : Shape).BroadcastsInDim ⟨2, ![K, 1]⟩ ![0])
    (x : (⟨1, ![K]⟩ : Shape).Idx → α) (k : Fin K) (z : Fin 1) :
    broadcastInDim ⟨2, ![K, 1]⟩ ![0] h x (ix2 k z) = x (ix1 k) := by
  refine broadcastInDim_apply _ h x _ (ix1 k) fun a => ?_
  match a with
  | ⟨0, _⟩ =>
    show k.val = if K = 1 then 0 else k.val
    have := k.isLt
    split <;> omega

/-- A list of `N` entries laid out as a `1 × N` row has entry `e` in column `e`. -/
theorem row_of_list_apply {N : ℕ} (h : (⟨1, ![N]⟩ : Shape).BroadcastsInDim ⟨2, ![1, N]⟩ ![1])
    (x : (⟨1, ![N]⟩ : Shape).Idx → α) (z : Fin 1) (e : Fin N) :
    broadcastInDim ⟨2, ![1, N]⟩ ![1] h x (ix2 z e) = x (ix1 e) := by
  refine broadcastInDim_apply _ h x _ (ix1 e) fun a => ?_
  match a with
  | ⟨0, _⟩ =>
    show e.val = if N = 1 then 0 else e.val
    have := e.isLt
    split <;> omega

/-- A `K × 1` column repeated across `N` columns has the column's entry `k` everywhere in row `k`. -/
theorem mat_of_col_apply {K N : ℕ} (h : (⟨2, ![K, 1]⟩ : Shape).BroadcastsInDim ⟨2, ![K, N]⟩ ![0, 1])
    (x : (⟨2, ![K, 1]⟩ : Shape).Idx → α) (k : Fin K) (e : Fin N) :
    broadcastInDim ⟨2, ![K, N]⟩ ![0, 1] h x (ix2 k e) = x (ix2 k 0) := by
  refine broadcastInDim_apply _ h x _ (ix2 k 0) fun a => ?_
  match a with
  | ⟨0, _⟩ =>
    show k.val = if K = 1 then 0 else k.val
    have := k.isLt
    split <;> omega
  | ⟨1, _⟩ => rfl

/-- A `1 × N` row repeated down `K` rows has the row's entry `e` everywhere in column `e`. -/
theorem mat_of_row_apply {K N : ℕ} (h : (⟨2, ![1, N]⟩ : Shape).BroadcastsInDim ⟨2, ![K, N]⟩ ![0, 1])
    (x : (⟨2, ![1, N]⟩ : Shape).Idx → α) (k : Fin K) (e : Fin N) :
    broadcastInDim ⟨2, ![K, N]⟩ ![0, 1] h x (ix2 k e) = x (ix2 0 e) := by
  refine broadcastInDim_apply _ h x _ (ix2 0 e) fun a => ?_
  match a with
  | ⟨0, _⟩ => rfl
  | ⟨1, _⟩ =>
    show e.val = if N = 1 then 0 else e.val
    have := e.isLt
    split <;> omega

/-- A list of `N` entries reshaped to one row keeps entry `e` in column `e`. -/
theorem row_reshape_apply {N : ℕ} (h : (⟨1, ![N]⟩ : Shape).ShapeCasts ⟨2, ![1, N]⟩)
    (x : (⟨1, ![N]⟩ : Shape).Idx → α) (e : Fin N) :
    shapeCast ⟨2, ![1, N]⟩ x h (ix2 0 e) = x (ix1 e) := by
  refine shapeCast_apply x h _ (ix1 e) ?_
  rw [Shape.rowMajor_val_one, Shape.rowMajor_val_two]
  show e.val = 0 * N + e.val
  omega

/-- A list of `n` entries padded at its end to `N` entries with the scalar `v`: entry `e` is the list's where
    `e < n` and the scalar past it. -/
theorem pad_end_apply {n N hi : ℕ} (h : (⟨1, ![n]⟩ : Shape).Pads ![0] ![hi] ![0] ⟨1, ![N]⟩) (hu : 0 < (⟨0, ![]⟩ : Shape).numel)
    (x : (⟨1, ![n]⟩ : Shape).Idx → α) (v : (⟨0, ![]⟩ : Shape).Idx → α) (e : Fin N) :
    pad ⟨1, ![N]⟩ ![0] ![hi] ![0] x v h hu (ix1 e) = if h' : e.val < n then x (ix1 ⟨e.val, h'⟩) else v ix0 := by
  by_cases h' : e.val < n
  · rw [dif_pos h']
    refine pad_apply_of_inside _ _ _ x v h hu _ (ix1 ⟨e.val, h'⟩) fun a => ?_
    match a with
    | ⟨0, _⟩ =>
      show e.val = 0 + e.val * (0 + 1)
      omega
  · rw [dif_neg h']
    refine (pad_apply_of_not_inside _ _ _ x v h hu _ ⟨0, Nat.one_pos⟩ ?_).trans (congrArg v (eq_ix0 _))
    show ¬(0 ≤ e.val ∧ (e.val - 0) % (0 + 1) = 0 ∧ (e.val - 0) / (0 + 1) < n)
    intro hh
    have := hh.2.2
    simp only [Nat.sub_zero, Nat.zero_add, Nat.div_one] at this
    exact h' this

/-- A padded list of words is `padW` of the list and the fill word. -/
theorem pad_end_words {n N hi : ℕ} (h : (⟨1, ![n]⟩ : Shape).Pads ![0] ![hi] ![0] ⟨1, ![N]⟩) (hu : 0 < (⟨0, ![]⟩ : Shape).numel)
    (x : (⟨1, ![n]⟩ : Shape).Idx → BitVec 32) (w : BitVec 32) (e : Fin N) :
    pad ⟨1, ![N]⟩ ![0] ![hi] ![0] x (constantI ⟨0, ![]⟩ 32 w) h hu (ix1 e) = Cert.Gnn.padW (fun e' => x (ix1 e')) w e :=
  pad_end_apply h hu x _ e

/-- A list of weights padded with the word zero read as a number is `padF` of the list. -/
theorem pad_end_weights {n N hi : ℕ} (h : (⟨1, ![n]⟩ : Shape).Pads ![0] ![hi] ![0] ⟨1, ![N]⟩) (hu : 0 < (⟨0, ![]⟩ : Shape).numel)
    (x : (⟨1, ![n]⟩ : Shape).Idx → EReal) (e : Fin N) :
    pad ⟨1, ![N]⟩ ![0] ![hi] ![0] x (sitofp (F := Ideal) .f32 (constantI ⟨0, ![]⟩ 32 0#32)) h hu (ix1 e)
      = Cert.Gnn.padF (fun e' => x (ix1 e')) e := by
  rw [pad_end_apply h hu x _ e]
  unfold Cert.Gnn.padF
  have hz : (sitofp (F := Ideal) .f32 (constantI ⟨0, ![]⟩ 32 0#32) : (⟨0, ![]⟩ : Shape).Idx → EReal) ix0 = 0 := by
    show (((0#32 : BitVec 32).toInt : ℝ) : EReal) = 0
    simp
  rw [hz]

/-- Choosing between two values by the comparison of two words for equality is the choice by their equality. -/
theorem select_cmpi_eq {w : ℕ} (a b : BitVec w) (u v : α) :
    Scalar.select (IntOp.cmpi .eq a b) u v = if a = b then u else v := by
  unfold Scalar.select IntOp.cmpi
  by_cases h : a = b
  · subst h; simp
  · have hb : (a == b) = false := beq_eq_false_iff_ne.mpr h
    simp [hb, h]

/-- The comparison of two words for equality read as a number is one where they are equal and zero elsewhere. -/
theorem uitofp_cmpi_eq {w : ℕ} (a b : BitVec w) :
    (FloatOps.uitofp (F := Ideal) .bf16 (IntOp.cmpi .eq a b) : EReal) = if a = b then 1 else 0 := by
  show (((IntOp.cmpi .eq a b).toNat : ℝ) : EReal) = _
  unfold IntOp.cmpi
  by_cases h : a = b
  · subst h; simp
  · simp [h]

/-- A difference of two arrays of words, entry by entry. -/
theorem subi_at {s : Shape} {w : ℕ} (x y : IVec s w) (i : s.Idx) : subi x y i = x i - y i := rfl

end Generic

/-! ## The two selection matrices as the host builds them -/

section Builders

/-- The gather matrix as built: the row numbers `0 … K-1` down a column and the edges' source words along a row, both
    repeated to `K × N` and compared; where they agree the edge's weight, elsewhere the constant zero. -/
def hostSel {K N : ℕ} (hcm : (⟨2, ![K, 1]⟩ : Shape).BroadcastsInDim ⟨2, ![K, N]⟩ ![0, 1])
    (hc : (⟨1, ![K]⟩ : Shape).BroadcastsInDim ⟨2, ![K, 1]⟩ ![0])
    (hrm : (⟨2, ![1, N]⟩ : Shape).BroadcastsInDim ⟨2, ![K, N]⟩ ![0, 1])
    (hs : (⟨0, ![]⟩ : Shape).BroadcastsInDim ⟨2, ![K, N]⟩ ![])
    (hb : FTy.bits .bf16 < FTy.bits .f32)
    (cols : IVec ⟨2, ![1, N]⟩ 32) (wts : FVec Ideal ⟨2, ![1, N]⟩ .f32) : FVec Ideal ⟨2, ![K, N]⟩ .bf16 :=
  truncf .bf16
    (select
      (cmpi .eq (broadcastInDim ⟨2, ![K, N]⟩ ![0, 1] hcm (broadcastInDim ⟨2, ![K, 1]⟩ ![0] hc (iotaInDim ⟨1, ![K]⟩ 32 0)))
        (broadcastInDim ⟨2, ![K, N]⟩ ![0, 1] hrm cols))
      (broadcastInDim ⟨2, ![K, N]⟩ ![0, 1] hrm wts)
      (broadcastInDim ⟨2, ![K, N]⟩ ![] hs (constant (F := Ideal) ⟨0, ![]⟩ .f32 0x00000000#32))) hb

/-- Entry `(k, e)` of the gather matrix as built is `selW` of edge `e`'s source word and weight at `k`. -/
theorem hostSel_apply {K N : ℕ} (hcm : (⟨2, ![K, 1]⟩ : Shape).BroadcastsInDim ⟨2, ![K, N]⟩ ![0, 1])
    (hc : (⟨1, ![K]⟩ : Shape).BroadcastsInDim ⟨2, ![K, 1]⟩ ![0])
    (hrm : (⟨2, ![1, N]⟩ : Shape).BroadcastsInDim ⟨2, ![K, N]⟩ ![0, 1])
    (hs : (⟨0, ![]⟩ : Shape).BroadcastsInDim ⟨2, ![K, N]⟩ ![])
    (hb : FTy.bits .bf16 < FTy.bits .f32)
    (cols : IVec ⟨2, ![1, N]⟩ 32) (wts : FVec Ideal ⟨2, ![1, N]⟩ .f32) (k : Fin K) (e : Fin N) :
    hostSel hcm hc hrm hs hb cols wts (ix2 k e) = Cert.Gnn.selW (cols (ix2 0 e)) (wts (ix2 0 e)) k.val := by
  unfold hostSel Cert.Gnn.selW
  show Scalar.select (IntOp.cmpi .eq
      (broadcastInDim ⟨2, ![K, N]⟩ ![0, 1] hcm (broadcastInDim ⟨2, ![K, 1]⟩ ![0] hc (iotaInDim ⟨1, ![K]⟩ 32 0)) (ix2 k e))
      (broadcastInDim ⟨2, ![K, N]⟩ ![0, 1] hrm cols (ix2 k e)))
    (broadcastInDim ⟨2, ![K, N]⟩ ![0, 1] hrm wts (ix2 k e))
    (broadcastInDim ⟨2, ![K, N]⟩ ![] hs (constant (F := Ideal) ⟨0, ![]⟩ .f32 0x00000000#32) (ix2 k e)) = _
  rw [mat_of_col_apply, col_of_list_apply, mat_of_row_apply, mat_of_row_apply, broadcastInDim_scalar_apply, select_cmpi_eq]
  show (if BitVec.ofNat 32 k.val = cols (ix2 0 e) then wts (ix2 0 e) else Ideal.ofBits .f32 0x00000000#32) = _
  rw [Ideal.ofBits_zero_f32]

/-- The scatter matrix as built: the edges' destination words down a column and the node numbers `0 … R-1` along a row,
    both repeated to `N × R` and compared; the comparison's bit read as a number. -/
def hostHot {N R : ℕ} (hcm : (⟨2, ![N, 1]⟩ : Shape).BroadcastsInDim ⟨2, ![N, R]⟩ ![0, 1])
    (hc : (⟨1, ![N]⟩ : Shape).BroadcastsInDim ⟨2, ![N, 1]⟩ ![0])
    (hrm : (⟨2, ![1, R]⟩ : Shape).BroadcastsInDim ⟨2, ![N, R]⟩ ![0, 1])
    (hr : (⟨1, ![R]⟩ : Shape).BroadcastsInDim ⟨2, ![1, R]⟩ ![1])
    (dst : IVec ⟨1, ![N]⟩ 32) : FVec Ideal ⟨2, ![N, R]⟩ .bf16 :=
  uitofp .bf16
    (cmpi .eq (broadcastInDim ⟨2, ![N, R]⟩ ![0, 1] hcm (broadcastInDim ⟨2, ![N, 1]⟩ ![0] hc dst))
      (broadcastInDim ⟨2, ![N, R]⟩ ![0, 1] hrm (broadcastInDim ⟨2, ![1, R]⟩ ![1] hr (iotaInDim ⟨1, ![R]⟩ 32 0))))

/-- Entry `(e, r)` of the scatter matrix as built is `hotW` of edge `e`'s destination word at `r`. -/
theorem hostHot_apply {N R : ℕ} (hcm : (⟨2, ![N, 1]⟩ : Shape).BroadcastsInDim ⟨2, ![N, R]⟩ ![0, 1])
    (hc : (⟨1, ![N]⟩ : Shape).BroadcastsInDim ⟨2, ![N, 1]⟩ ![0])
    (hrm : (⟨2, ![1, R]⟩ : Shape).BroadcastsInDim ⟨2, ![N, R]⟩ ![0, 1])
    (hr : (⟨1, ![R]⟩ : Shape).BroadcastsInDim ⟨2, ![1, R]⟩ ![1])
    (dst : IVec ⟨1, ![N]⟩ 32) (e : Fin N) (r : Fin R) :
    hostHot hcm hc hrm hr dst (ix2 e r) = Cert.Gnn.hotW (dst (ix1 e)) r.val := by
  unfold hostHot Cert.Gnn.hotW
  show FloatOps.uitofp (F := Ideal) .bf16 (IntOp.cmpi .eq
      (broadcastInDim ⟨2, ![N, R]⟩ ![0, 1] hcm (broadcastInDim ⟨2, ![N, 1]⟩ ![0] hc dst) (ix2 e r))
      (broadcastInDim ⟨2, ![N, R]⟩ ![0, 1] hrm (broadcastInDim ⟨2, ![1, R]⟩ ![1] hr (iotaInDim ⟨1, ![R]⟩ 32 0)) (ix2 e r))) = _
  rw [mat_of_col_apply, col_of_list_apply, mat_of_row_apply, row_of_list_apply, uitofp_cmpi_eq]
  rfl

end Builders

/-! ## What each staged array is, as one term over the arguments

Running the host operations in order, each array the region stages is a fixed composition of pads, layouts,
comparisons and choices over the program's arguments. -/

section Terms

/-- The hidden layer's activation words: the argument padded with zero words, as one row. -/
theorem actsH_term : (V m c main_v4 : S1x2048.Idx → BitVec 32) =
    shapeCast S1x2048 (pad S2048 ![0] ![77] ![0] (m ((c : Thread nD τ).loc main_arg5) : S1971.Idx → BitVec 32) (constantI S_ 32 0#32) pads_S1971_S2048_0770 h_S_) shapeCasts_S2048_S1x2048 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, List.flatten_cons, List.flatten_nil, List.append_nil, List.cons_append, List.nil_append]
  after_results_simp
  rfl

/-- The output layer's activation words: the argument padded with zero words, as one row. -/
theorem actsO_term : (V m c main_v9 : S1x4864.Idx → BitVec 32) =
    shapeCast S1x4864 (pad S4864 ![0] ![28] ![0] (m ((c : Thread nD τ).loc main_arg8) : S4836.Idx → BitVec 32) (constantI S_ 32 0#32) pads_S4836_S4864_0280 h_S_) shapeCasts_S4864_S1x4864 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, List.flatten_cons, List.flatten_nil, List.append_nil, List.cons_append, List.nil_append]
  after_results_simp
  rfl

/-- The hidden layer's gather matrix: built from the padded source words and the padded weights. -/
theorem selH_term : (V m c main_v18 : S512x2048.Idx → EReal) =
    hostSel bcast_S512x1_S512x2048_0_1 bcast_S512_S512x1_0 bcast_S1x2048_S512x2048_0_1 bcast_S_S512x2048 bitsLt_bf16_f32 (broadcastInDim S1x2048 ![1] bcast_S2048_S1x2048_1 (pad S2048 ![0] ![77] ![0] (m ((c : Thread nD τ).loc main_arg4) : S1971.Idx → BitVec 32) (constantI S_ 32 4294967295#32) pads_S1971_S2048_0770 h_S_)) (broadcastInDim S1x2048 ![1] bcast_S2048_S1x2048_1 (pad S2048 ![0] ![77] ![0] (m ((c : Thread nD τ).loc main_arg1) : S1971.Idx → EReal) (sitofp (F := Ideal) .f32 (constantI S_ 32 0#32)) pads_S1971_S2048_0770 h_S_)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, List.flatten_cons, List.flatten_nil, List.append_nil, List.cons_append, List.nil_append]
  after_results_simp
  rfl

/-- The hidden layer's scatter matrix: built from the padded destination words. -/
theorem hotH_term : (V m c main_v25 : S2048x128.Idx → EReal) =
    hostHot bcast_S2048x1_S2048x128_0_1 bcast_S2048_S2048x1_0 bcast_S1x128_S2048x128_0_1 bcast_S128_S1x128_1 (pad S2048 ![0] ![77] ![0] (m ((c : Thread nD τ).loc main_arg3) : S1971.Idx → BitVec 32) (constantI S_ 32 4294967295#32) pads_S1971_S2048_0770 h_S_) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, List.flatten_cons, List.flatten_nil, List.append_nil, List.cons_append, List.nil_append]
  after_results_simp
  rfl

/-- The output layer's gather matrix from the input row: built from the padded source words and weights. -/
theorem selOx_term : (V m c main_v32 : S512x4864.Idx → EReal) =
    hostSel bcast_S512x1_S512x4864_0_1 bcast_S512_S512x1_0 bcast_S1x4864_S512x4864_0_1 bcast_S_S512x4864 bitsLt_bf16_f32 (broadcastInDim S1x4864 ![1] bcast_S4864_S1x4864_1 (pad S4864 ![0] ![28] ![0] (m ((c : Thread nD τ).loc main_arg7) : S4836.Idx → BitVec 32) (constantI S_ 32 4294967295#32) pads_S4836_S4864_0280 h_S_)) (broadcastInDim S1x4864 ![1] bcast_S4864_S1x4864_1 (pad S4864 ![0] ![28] ![0] (m ((c : Thread nD τ).loc main_arg2) : S4836.Idx → EReal) (sitofp (F := Ideal) .f32 (constantI S_ 32 0#32)) pads_S4836_S4864_0280 h_S_)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, List.flatten_cons, List.flatten_nil, List.append_nil, List.cons_append, List.nil_append]
  after_results_simp
  rfl

/-- The output layer's gather matrix from the hidden nodes: the padded source words less 512, and the padded weights. -/
theorem selOh_term : (V m c main_v43 : S128x4864.Idx → EReal) =
    hostSel bcast_S128x1_S128x4864_0_1 bcast_S128_S128x1_0 bcast_S1x4864_S128x4864_0_1 bcast_S_S128x4864 bitsLt_bf16_f32 (subi (broadcastInDim S1x4864 ![1] bcast_S4864_S1x4864_1 (pad S4864 ![0] ![28] ![0] (m ((c : Thread nD τ).loc main_arg7) : S4836.Idx → BitVec 32) (constantI S_ 32 4294967295#32) pads_S4836_S4864_0280 h_S_)) (broadcastInDim S1x4864 ![] bcast_S_S1x4864 (constantI S_ 32 512#32))) (broadcastInDim S1x4864 ![1] bcast_S4864_S1x4864_1 (pad S4864 ![0] ![28] ![0] (m ((c : Thread nD τ).loc main_arg2) : S4836.Idx → EReal) (sitofp (F := Ideal) .f32 (constantI S_ 32 0#32)) pads_S4836_S4864_0280 h_S_)) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, List.flatten_cons, List.flatten_nil, List.append_nil, List.cons_append, List.nil_append]
  after_results_simp
  rfl

/-- The output layer's scatter matrix: built from the padded destination words. -/
theorem hotO_term : (V m c main_v50 : S4864x256.Idx → EReal) =
    hostHot bcast_S4864x1_S4864x256_0_1 bcast_S4864_S4864x1_0 bcast_S1x256_S4864x256_0_1 bcast_S256_S1x256_1 (pad S4864 ![0] ![28] ![0] (m ((c : Thread nD τ).loc main_arg6) : S4836.Idx → BitVec 32) (constantI S_ 32 4294967295#32) pads_S4836_S4864_0280 h_S_) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, List.flatten_cons, List.flatten_nil, List.append_nil, List.cons_append, List.nil_append]
  after_results_simp
  rfl

end Terms

/-! ## The staged arrays entry by entry -/

/-- The input rows are staged as launched: no host operation writes them. -/
theorem aX_eq (b : Fin 16384) (k : Fin 512) : aX m c b k = gX m c b k := by
  unfold aX gX
  rw [Gen.V_main_arg0]

/-- The hidden gather matrix: column `e` holds edge `e`'s weight in the row its source word names. -/
theorem aSh_eq (k : Fin 512) (e : Fin 2048) :
    aSh m c k e = Cert.Gnn.selW (Cert.Gnn.padW (gCh m c) 4294967295#32 e) (Cert.Gnn.padF (gWh m c) e) k.val := by
  unfold aSh
  refine (congrFun (selH_term m c) (ix2 k e)).trans ?_
  rw [hostSel_apply, row_of_list_apply, row_of_list_apply, pad_end_words, pad_end_weights]
  rfl

/-- The hidden activation words: the argument's, then zero words. -/
theorem aAh_eq (e : Fin 2048) : aAh m c e = Cert.Gnn.padW (gAh m c) 0#32 e := by
  unfold aAh
  refine (congrFun (actsH_term m c) (ix2 0 e)).trans ?_
  rw [row_reshape_apply, pad_end_words]
  rfl

/-- The hidden scatter matrix: row `e` is one at the node edge `e`'s destination word names. -/
theorem aRh_eq (e : Fin 2048) (h : Fin 128) :
    aRh m c e h = Cert.Gnn.hotW (Cert.Gnn.padW (gRh m c) 4294967295#32 e) h.val := by
  unfold aRh
  refine (congrFun (hotH_term m c) (ix2 e h)).trans ?_
  rw [hostHot_apply, pad_end_words]
  rfl

/-- The output gather matrix from the input row. -/
theorem aSox_eq (k : Fin 512) (e : Fin 4864) :
    aSox m c k e = Cert.Gnn.selW (Cert.Gnn.padW (gCo m c) 4294967295#32 e) (Cert.Gnn.padF (gWo m c) e) k.val := by
  unfold aSox
  refine (congrFun (selOx_term m c) (ix2 k e)).trans ?_
  rw [hostSel_apply, row_of_list_apply, row_of_list_apply, pad_end_words, pad_end_weights]
  rfl

/-- The output gather matrix from the hidden nodes: the source word is counted from 512. -/
theorem aSoh_eq (h : Fin 128) (e : Fin 4864) :
    aSoh m c h e = Cert.Gnn.selW (Cert.Gnn.padW (gCo m c) 4294967295#32 e - 512#32) (Cert.Gnn.padF (gWo m c) e) h.val := by
  unfold aSoh
  refine (congrFun (selOh_term m c) (ix2 h e)).trans ?_
  rw [hostSel_apply, subi_at, row_of_list_apply, row_of_list_apply, broadcastInDim_scalar_apply, pad_end_words,
    pad_end_weights]
  rfl

/-- The output activation words: the argument's, then zero words. -/
theorem aAo_eq (e : Fin 4864) : aAo m c e = Cert.Gnn.padW (gAo m c) 0#32 e := by
  unfold aAo
  refine (congrFun (actsO_term m c) (ix2 0 e)).trans ?_
  rw [row_reshape_apply, pad_end_words]
  rfl

/-- The output scatter matrix. -/
theorem aRo_eq (e : Fin 4864) (r : Fin 256) :
    aRo m c e r = Cert.Gnn.hotW (Cert.Gnn.padW (gRo m c) 4294967295#32 e) r.val := by
  unfold aRo
  refine (congrFun (hotO_term m c) (ix2 e r)).trans ?_
  rw [hostHot_apply, pad_end_words]
  rfl

end Cert.KernelIdeal.Hand

end
-- ==== Proof.LibColumnOps.lean ====
/-
  Two layout operations read at an index, for arrays of rows: picking whole columns of a matrix by a list of
  integer words (a gather along the second axis), and adding the columns of a matrix of updates into the columns
  of an operand that a list of integer words names (an accumulating scatter along the second axis).

  Gathering clamps: the word is read as a signed integer and forced into the operand's column range.  Scattering
  does not: a word that names no column of the operand drops its update.  So column e of the gathered matrix is
  column min (word e) (N - 1) of the operand, and column h of the scattered matrix is the operand's column h
  plus the sum of the update columns e whose word, read signed, is exactly h.
-/
import Idealize.ShloMosaic.PureOps
import Idealize.ShloMosaic.PureOps.Ideal.Laws
import Idealize.ShloMosaic.Lib.ValueIdx

noncomputable section

open scoped BigOperators

namespace Cert.Gnn.Cols

open Idealize.ShloMosaic Idealize.ShloMosaic.ValueIdx

/-! ## Picking columns -/

section Gather
variable {α : Type}

/-- The dimension numbers of a gather of whole columns: operand [B, N], one start word per picked column, held as
    [E, 1], result [B, E]. -/
abbrev colGatherDims (B N E : Nat)
    (wf : GatherDims.WF ⟨2, ![B, N]⟩ ⟨2, ![E, 1]⟩ ⟨2, ![B, E]⟩ [0] [1] [] [1] [] 1 ![B, 1]) :
    GatherDims ⟨2, ![B, N]⟩ ⟨2, ![E, 1]⟩ ⟨2, ![B, E]⟩ where
  offsetDims := [0]
  collapsedSliceDims := [1]
  operandBatchingDims := []
  startIndicesBatchingDims := []
  startIndexMap := [1]
  indexVectorDim := 1
  sliceSizes := ![B, 1]
  wf := wf

/-- Entry (b, e) of the gathered matrix is the operand's entry in row b at the column the e-th word names, the
    word read signed and clamped into [0, N - 1]. -/
theorem colGather_apply {B N E w : Nat} (hN : 0 < N)
    (wf : GatherDims.WF ⟨2, ![B, N]⟩ ⟨2, ![E, 1]⟩ ⟨2, ![B, E]⟩ [0] [1] [] [1] [] 1 ![B, 1])
    (x : (⟨2, ![B, N]⟩ : Shape).Idx → α) (idx : IVec ⟨2, ![E, 1]⟩ w) (b : Fin B) (e : Fin E) :
    Host.gather (colGatherDims B N E wf) x idx (ix2 b e)
      = x (ix2 b ⟨min (idx (ix2 e (0 : Fin 1))).toInt.toNat (N - 1), by omega⟩) := by
  unfold Host.gather
  congr 1
  funext a
  refine Fin.ext ?_
  match a with
  | ⟨0, _⟩ =>
    show (colGatherDims B N E wf).start (ix2 b e) idx 0 + (colGatherDims B N E wf).batchCoord (ix2 b e) 0
      + (colGatherDims B N E wf).offCoord (ix2 b e) 0 = b.val
    rw [GatherDims.batchCoord_eq_zero _ _ _ List.not_mem_nil]
    have hs : (colGatherDims B N E wf).start (ix2 b e) idx 0 = 0 := by
      unfold GatherDims.start; rw [dif_neg (show (0 : Fin 2) ∉ ([1] : List (Fin 2)) by decide)]
    rw [hs]
    simp only [Nat.zero_add, Nat.add_zero]
    unfold GatherDims.offCoord
    rw [dif_pos ((GatherDims.mem_sKept _ _).mpr ⟨(show (0 : Fin 2) ∉ ([1] : List (Fin 2)) by decide), List.not_mem_nil⟩)]
    rfl
  | ⟨1, _⟩ =>
    show (colGatherDims B N E wf).start (ix2 b e) idx 1 + (colGatherDims B N E wf).batchCoord (ix2 b e) 1
      + (colGatherDims B N E wf).offCoord (ix2 b e) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGatherDims B N E wf).startIndexMap from List.mem_singleton.mpr rfl)]
    have hsi : (colGatherDims B N E wf).siIdx (ix2 b e) ⟨List.idxOf (1 : Fin 2) (colGatherDims B N E wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl

end Gather

/-! ## Adding columns into named columns -/

section Scatter

/-- The dimension numbers of a scatter of whole columns: operand [B, N], one destination word per update column,
    held as [E, 1], updates [B, E]. -/
abbrev colScatterDims (B N E : Nat)
    (wf : ScatterDims.WF ⟨2, ![B, N]⟩ ⟨2, ![E, 1]⟩ ⟨2, ![B, E]⟩ [0] [1] [1] 1) :
    ScatterDims ⟨2, ![B, N]⟩ ⟨2, ![E, 1]⟩ ⟨2, ![B, E]⟩ where
  updateWindowDims := [0]
  insertedWindowDims := [1]
  scatterDimsToOperandDims := [1]
  indexVectorDim := 1
  wf := wf

variable {B N E w : Nat} (wf : ScatterDims.WF ⟨2, ![B, N]⟩ ⟨2, ![E, 1]⟩ ⟨2, ![B, E]⟩ [0] [1] [1] 1)
  (idx : IVec ⟨2, ![E, 1]⟩ w)

/-- Along the rows nothing is offset: the start is zero. -/
theorem colScatter_start_row (b : Fin B) (e : Fin E) : (colScatterDims B N E wf).start (ix2 b e) idx 0 = 0 := by
  unfold ScatterDims.start; rw [dif_neg (show (0 : Fin 2) ∉ ([1] : List (Fin 2)) by decide)]

/-- Along the columns the start is the update column's destination word, read signed. -/
theorem colScatter_start_col (b : Fin B) (e : Fin E) :
    (colScatterDims B N E wf).start (ix2 b e) idx 1 = (idx (ix2 e (0 : Fin 1))).toInt := by
  unfold ScatterDims.start
  rw [dif_pos (show (1 : Fin 2) ∈ (colScatterDims B N E wf).scatterDimsToOperandDims from List.mem_singleton.mpr rfl)]
  have hsi : (colScatterDims B N E wf).siIdx (ix2 b e) ⟨List.idxOf (1 : Fin 2) (colScatterDims B N E wf).scatterDimsToOperandDims,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]

/-- The window covers a whole column: its row coordinate is the update's row. -/
theorem colScatter_window_row (b : Fin B) (e : Fin E) : (colScatterDims B N E wf).window (ix2 b e) 0 = b.val := by
  unfold ScatterDims.window
  rw [dif_pos (show (0 : Fin 2) ∈ (colScatterDims B N E wf).sKept by
    show (0 : Fin 2) ∈ (⟨2, ![B, N]⟩ : Shape).kept ([1] : List (Fin 2))
    simp [Shape.kept, List.mem_filter, List.mem_finRange])]
  rfl

/-- The window is one column wide. -/
theorem colScatter_window_col (b : Fin B) (e : Fin E) : (colScatterDims B N E wf).window (ix2 b e) 1 = 0 := by
  unfold ScatterDims.window
  rw [dif_neg (show (1 : Fin 2) ∉ (colScatterDims B N E wf).sKept by
    show (1 : Fin 2) ∉ (⟨2, ![B, N]⟩ : Shape).kept ([1] : List (Fin 2))
    simp [Shape.kept, List.mem_filter, List.mem_finRange])]

/-- Update entry (b', e) lands on operand entry (b, h) exactly when it is in the same row and its column's word,
    read signed, is h. -/
theorem colScatter_lands_iff (b b' : Fin B) (e : Fin E) (h : Fin N) :
    (colScatterDims B N E wf).resultIdx? (ix2 b' e) idx = some (ix2 b h)
      ↔ b' = b ∧ (idx (ix2 e (0 : Fin 1))).toInt = (h.val : ℤ) := by
  have hB : ∀ a : Fin 2, a = 0 → (⟨2, ![B, N]⟩ : Shape).size a = B := fun a ha => by subst ha; rfl
  have hN : ∀ a : Fin 2, a = 1 → (⟨2, ![B, N]⟩ : Shape).size a = N := fun a ha => by subst ha; rfl
  unfold ScatterDims.resultIdx?
  constructor
  · intro hr
    split at hr
    · next hc =>
      have hf := Option.some.inj hr
      have h0 := congrArg Fin.val (congrFun hf 0)
      have h1 := congrArg Fin.val (congrFun hf 1)
      have c1 := hc 1
      rw [colScatter_start_col, colScatter_window_col] at c1
      simp only [colScatter_start_row, colScatter_window_row, colScatter_start_col, colScatter_window_col] at h0 h1
      have h0' : ((0 : ℤ) + ((b'.val : ℕ) : ℤ)).toNat = b.val := h0
      have e0 : b'.val = b.val := by omega
      have e1 : ((idx (ix2 e (0 : Fin 1))).toInt + ((0 : ℕ) : ℤ)).toNat = h.val := h1
      exact ⟨Fin.ext e0, by omega⟩
    · exact absurd hr (by simp)
  · rintro ⟨rfl, hw⟩
    have hc : ∀ a : Fin 2, 0 ≤ (colScatterDims B N E wf).start (ix2 b' e) idx a + ((colScatterDims B N E wf).window (ix2 b' e) a : ℤ)
        ∧ (colScatterDims B N E wf).start (ix2 b' e) idx a + ((colScatterDims B N E wf).window (ix2 b' e) a : ℤ)
          < ((⟨2, ![B, N]⟩ : Shape).size a : ℤ) := fun a => by
      match a with
      | ⟨0, _⟩ =>
        show 0 ≤ (colScatterDims B N E wf).start (ix2 b' e) idx 0 + ((colScatterDims B N E wf).window (ix2 b' e) 0 : ℤ)
          ∧ (colScatterDims B N E wf).start (ix2 b' e) idx 0 + ((colScatterDims B N E wf).window (ix2 b' e) 0 : ℤ) < (B : ℤ)
        rw [colScatter_start_row, colScatter_window_row]; have := b'.isLt; omega
      | ⟨1, _⟩ =>
        show 0 ≤ (colScatterDims B N E wf).start (ix2 b' e) idx 1 + ((colScatterDims B N E wf).window (ix2 b' e) 1 : ℤ)
          ∧ (colScatterDims B N E wf).start (ix2 b' e) idx 1 + ((colScatterDims B N E wf).window (ix2 b' e) 1 : ℤ) < (N : ℤ)
        rw [colScatter_start_col, colScatter_window_col]; have := h.isLt; omega
    rw [dif_pos hc]
    congr 1
    funext a
    refine Fin.ext ?_
    match a with
    | ⟨0, _⟩ =>
      show ((colScatterDims B N E wf).start (ix2 b' e) idx 0 + ((colScatterDims B N E wf).window (ix2 b' e) 0 : ℤ)).toNat = b'.val
      rw [colScatter_start_row, colScatter_window_row]; omega
    | ⟨1, _⟩ =>
      show ((colScatterDims B N E wf).start (ix2 b' e) idx 1 + ((colScatterDims B N E wf).window (ix2 b' e) 1 : ℤ)).toNat = h.val
      rw [colScatter_start_col, colScatter_window_col]; omega

/-- The accumulating scatter of whole columns, read at entry (b, h): the operand's entry plus the sum of row b of
    the update columns whose word, read signed, is h. -/
theorem colScatterAdd_apply (x : (⟨2, ![B, N]⟩ : Shape).Idx → EReal) (upd : (⟨2, ![B, E]⟩ : Shape).Idx → EReal)
    (b : Fin B) (h : Fin N) :
    Ideal.hostScatterAdd (colScatterDims B N E wf) x idx upd (ix2 b h)
      = x (ix2 b h) + ∑ e : Fin E, if (idx (ix2 e (0 : Fin 1))).toInt = (h.val : ℤ) then upd (ix2 b e) else 0 := by
  unfold Ideal.hostScatterAdd
  congr 1
  rw [Finset.sum_filter, sum_idx2, Finset.sum_eq_single b]
  · refine Finset.sum_congr rfl fun e _ => ?_
    exact if_congr ((colScatter_lands_iff wf idx b b e h).trans (and_iff_right rfl)) rfl rfl
  · intro b' _ hb'
    refine Finset.sum_eq_zero fun e _ => ?_
    rw [if_neg]
    exact fun hr => hb' ((colScatter_lands_iff wf idx b b' e h).mp hr).1
  · intro hb; exact absurd (Finset.mem_univ b) hb

end Scatter

end Cert.Gnn.Cols

end
-- ==== Proof.RefValue.lean ====
/-
  The reference program computes the sparse message-passing layer.

  Read index by index, the reference does this to row b of the input.  For every hidden-layer edge e it picks the
  column of the row that the edge's column word names, multiplies by the edge's weight and applies the activation
  the edge's word selects; it then adds each edge value into the hidden node its row word names.  The row
  followed by the 128 hidden nodes is the source of the output layer, which repeats the same three steps and ends
  with a hyperbolic tangent.

  Three facts about the integer words carry the proof.  A word that is not negative is left alone by the wrap that
  moves negative indices to the end of an axis.  A column word in range is its own clamped value, so picking a
  column reads exactly the entry the word names.  And a destination word, read as a signed integer, equals a node
  number h exactly when the word is the 32-bit numeral of h, so the update columns that land on node h are the
  edges whose word is that numeral: a word past the last node lands nowhere and is the numeral of no node.
-/
import proofs.«168213_j89618787598437_1_alg».proof.Proof.Gen.ReferenceIdeal.Read
import proofs.«168213_j89618787598437_1_alg».proof.Proof.Spec
import proofs.«168213_j89618787598437_1_alg».proof.Proof.LibColumnOps
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx
open Cert.Gnn Cert.Gnn.Cols

/-! ## Words -/

/-- The float word of one is the extended real one. -/
theorem ofBits_one_f32 : Ideal.ofBits .f32 0x3F800000#32 = 1 := by
  simp [Ideal.ofBits, Ideal.ieee]
  rw [← EReal.coe_mul, ← EReal.coe_one]
  congr 1
  norm_num

/-- A word that is not negative, read signed, is its unsigned value. -/
theorem toInt_eq_toNat_of_nonneg (w : BitVec 32) (h : 0 ≤ w.toInt) : w.toInt = (w.toNat : ℤ) := by
  have := w.isLt
  rw [BitVec.toInt_eq_toNat_cond] at h ⊢
  split at h <;> rename_i hc
  · rw [if_pos hc]
  · exfalso; omega

/-- The wrap of negative indices leaves a word that is not negative alone. -/
theorem wrap_of_nonneg (w n : BitVec 32) (h : 0 ≤ w.toInt) :
    Scalar.select (IntOp.cmpi .slt w 0#32) (IntOp.addi w n) w = w := by
  have hs : w.slt 0#32 = false := by
    rw [BitVec.slt]; simp; exact h
  unfold Scalar.select IntOp.cmpi
  simp [hs]

/-- Selecting by an equality test of words is the if-then-else on the equality. -/
theorem select_cmpi_eq {α : Type} (a c : BitVec 32) (u v : α) :
    Scalar.select (IntOp.cmpi .eq a c) u v = if a = c then u else v := by
  unfold Scalar.select IntOp.cmpi
  by_cases h : a = c
  · subst h; simp
  · have hb : (a == c) = false := by simpa using h
    simp [hb, h]

/-- A word read signed is the number n (below 2^31) exactly when it is the 32-bit numeral of n. -/
theorem toInt_eq_natCast_iff (w : BitVec 32) (n : ℕ) (hn : n < 2147483648) :
    w.toInt = (n : ℤ) ↔ w = BitVec.ofNat 32 n := by
  constructor
  · intro h
    have h0 : 0 ≤ w.toInt := by omega
    have h1 := toInt_eq_toNat_of_nonneg w h0
    apply BitVec.eq_of_toNat_eq
    rw [BitVec.toNat_ofNat]
    have : w.toNat = n := by omega
    rw [this, Nat.mod_eq_of_lt (by omega)]
  · rintro rfl
    rw [BitVec.toInt_eq_toNat_cond, BitVec.toNat_ofNat, Nat.mod_eq_of_lt (by omega), if_pos (by omega)]

/-- The three nested selections of the reference's edge activation are the activation the word selects. -/
theorem select_act (a : BitVec 32) (z : EReal) :
    Scalar.select (IntOp.cmpi .eq a 2#32) (FloatOps.hostUnary (F := Ideal) (φ := .f32) .tanh z)
      (Scalar.select (IntOp.cmpi .eq a 3#32) (FloatOps.maximumf (F := Ideal) (φ := .f32) z (FloatOps.ofBits (F := Ideal) .f32 0x00000000#32))
        (Scalar.select (IntOp.cmpi .eq a 4#32)
          (FloatOps.hostDivf (F := Ideal) (φ := .f32) (FloatOps.ofBits (F := Ideal) .f32 0x3F800000#32)
            (FloatOps.addf (F := Ideal) (φ := .f32) (FloatOps.ofBits (F := Ideal) .f32 0x3F800000#32)
              (FloatOps.hostUnary (F := Ideal) (φ := .f32) .exp (FloatOps.hostNegf (F := Ideal) (φ := .f32) z)))) z))
      = act a z := by
  rw [select_cmpi_eq, select_cmpi_eq, select_cmpi_eq]
  simp only [Ideal.hostUnary_tanh_def, Ideal.maximumf_def, Ideal.ofBits_def, Ideal.ofBits_zero_f32, ofBits_one_f32,
    Ideal.hostDivf_def, Ideal.addf_def, Ideal.hostUnary_exp_def, Ideal.hostNegf_def, Ideal.negf_def]
  rfl

/-! ## Picking and adding columns, at the program's shapes -/

/-- Picking columns of the 512-column input by the hidden layer's column words. -/
theorem gather512_apply {α : Type} (x : S16384x512.Idx → α) (idx : IVec S1971x1 32) (b : Fin 16384) (e : Fin 1971) :
    Host.gather gather_S16384x512_S1971x1_S16384x1971_0_1_n_n_1_1_163841 x idx (ix2 b e)
      = x (ix2 b ⟨min (idx (ix2 e 0)).toInt.toNat 511, by omega⟩) :=
  colGather_apply (B := 16384) (N := 512) (E := 1971) (by decide)
    gather_S16384x512_S1971x1_S16384x1971_0_1_n_n_1_1_163841.wf x idx b e

/-- Picking columns of the 640-column source by the output layer's column words. -/
theorem gather640_apply {α : Type} (x : S16384x640.Idx → α) (idx : IVec S4836x1 32) (b : Fin 16384) (e : Fin 4836) :
    Host.gather gather_S16384x640_S4836x1_S16384x4836_0_1_n_n_1_1_163841 x idx (ix2 b e)
      = x (ix2 b ⟨min (idx (ix2 e 0)).toInt.toNat 639, by omega⟩) :=
  colGather_apply (B := 16384) (N := 640) (E := 4836) (by decide)
    gather_S16384x640_S4836x1_S16384x4836_0_1_n_n_1_1_163841.wf x idx b e

/-- Adding the hidden layer's edge columns into the 128 hidden nodes. -/
theorem scatterAdd128_apply (x : S16384x128.Idx → EReal) (idx : IVec S1971x1 32) (upd : S16384x1971.Idx → EReal)
    (b : Fin 16384) (h : Fin 128) :
    Ideal.hostScatterAdd scatter_S16384x128_S1971x1_S16384x1971_0_1_1_1 x idx upd (ix2 b h)
      = x (ix2 b h) + ∑ e : Fin 1971, if (idx (ix2 e 0)).toInt = (h.val : ℤ) then upd (ix2 b e) else 0 :=
  colScatterAdd_apply (B := 16384) (N := 128) (E := 1971) scatter_S16384x128_S1971x1_S16384x1971_0_1_1_1.wf idx x upd b h

/-- Adding the output layer's edge columns into the 256 output nodes. -/
theorem scatterAdd256_apply (x : S16384x256.Idx → EReal) (idx : IVec S4836x1 32) (upd : S16384x4836.Idx → EReal)
    (b : Fin 16384) (r : Fin 256) :
    Ideal.hostScatterAdd scatter_S16384x256_S4836x1_S16384x4836_0_1_1_1 x idx upd (ix2 b r)
      = x (ix2 b r) + ∑ e : Fin 4836, if (idx (ix2 e 0)).toInt = (r.val : ℤ) then upd (ix2 b e) else 0 :=
  colScatterAdd_apply (B := 16384) (N := 256) (E := 4836) scatter_S16384x256_S4836x1_S16384x4836_0_1_1_1.wf idx x upd b r

/-! ## The hidden layer -/

section Hidden
variable (x0 : (⟨S16384x512, .f32⟩ : BufTy).Contents (Elt Ideal)) (x1 : (⟨S1971, .f32⟩ : BufTy).Contents (Elt Ideal))
  (x3 x4 x5 : (⟨S1971, .i32⟩ : BufTy).Contents (Elt Ideal))

/-- A column word that is not negative reaches the gather unchanged. -/
theorem cols_h_wrapped (e : Fin 1971) (h : 0 ≤ (x4 (ix1 e)).toInt) :
    val_main_v5 (F := Ideal) x4 (ix2 e (0 : Fin 1)) = x4 (ix1 e) := by
  have hi : idx_main_v5 (ix2 e (0 : Fin 1)) = ix1 e := funext fun a => match a with | ⟨0, _⟩ => rfl
  rw [val_main_v5_apply, hi, val_main_v4_apply, val_main_v1_apply, val_main_v0_apply, val_main_c_apply]
  exact wrap_of_nonneg _ _ h

/-- A destination word that is not negative reaches the scatter unchanged. -/
theorem rows_h_wrapped (e : Fin 1971) (h : 0 ≤ (x3 (ix1 e)).toInt) :
    val_main_v33 (F := Ideal) x3 (ix2 e (0 : Fin 1)) = x3 (ix1 e) := by
  have hi : idx_main_v33 (ix2 e (0 : Fin 1)) = ix1 e := funext fun a => match a with | ⟨0, _⟩ => rfl
  rw [val_main_v33_apply, hi, val_main_v32_apply, val_main_v29_apply, val_main_v28_apply, val_main_c_6_apply]
  exact wrap_of_nonneg _ _ h

/-- The weights, laid along the rows: entry (b, e) is edge e's weight. -/
theorem weight_h_apply (b : Fin 16384) (e : Fin 1971) : val_main_v8 (F := Ideal) x1 (ix2 b e) = x1 (ix1 e) := by
  rw [val_main_v8_apply, val_main_v7_apply]
  exact congrArg x1 (funext fun a => match a with | ⟨0, _⟩ => rfl)

/-- The column the hidden edge e reads, in row b: the entry its in-range column word names. -/
theorem picked_h_apply (b : Fin 16384) (e : Fin 1971)
    (hc : 0 ≤ (x4 (ix1 e)).toInt ∧ (x4 (ix1 e)).toInt < 512) :
    val_main_v6 (F := Ideal) x0 x4 (ix2 b e) = colAt (fun k => x0 (ix2 b k)) (x4 (ix1 e)).toNat := by
  have h1 := toInt_eq_toNat_of_nonneg _ hc.1
  have hlt : (x4 (ix1 e)).toNat < 512 := by omega
  unfold val_main_v6
  rw [gather512_apply]
  unfold colAt
  rw [dif_pos hlt]
  exact congrArg (fun k => x0 (ix2 b k)) (Fin.ext (by
    show min (val_main_v5 (F := Ideal) x4 (ix2 e (0 : Fin 1))).toInt.toNat 511 = (x4 (ix1 e)).toNat
    rw [cols_h_wrapped x4 e hc.1]
    omega))

/-- The value of hidden edge e in row b: the activated weighted column. -/
theorem edge_h_apply (b : Fin 16384) (e : Fin 1971)
    (hc : 0 ≤ (x4 (ix1 e)).toInt ∧ (x4 (ix1 e)).toInt < 512) :
    val_main_v26 (F := Ideal) x0 x1 x4 x5 (ix2 b e)
      = act (x5 (ix1 e)) (colAt (fun k => x0 (ix2 b k)) (x4 (ix1 e)).toNat * x1 (ix1 e)) := by
  have i1 : idx_main_call1_v0 (ix2 b e) = ix1 e := funext fun a => match a with | ⟨0, _⟩ => rfl
  have i2 : idx_main_call2_v0 (ix2 b e) = ix1 e := funext fun a => match a with | ⟨0, _⟩ => rfl
  have i3 : idx_main_call3_v0 (ix2 b e) = ix1 e := funext fun a => match a with | ⟨0, _⟩ => rfl
  rw [val_main_v26_apply, val_main_call3_v0_apply, i3, val_main_v11_apply, val_main_v10_apply, val_main_c_1_apply,
    val_main_v12_apply, val_main_v25_apply, val_main_call2_v0_apply, i2, val_main_v14_apply, val_main_v13_apply,
    val_main_c_2_apply, val_main_v15_apply, val_main_call0_v0_apply, val_main_call0_cst_apply,
    val_main_v24_apply, val_main_call1_v0_apply, i1, val_main_v17_apply, val_main_v16_apply, val_main_c_3_apply,
    val_main_v23_apply, val_main_v22_apply, val_main_cst_4_apply, val_main_v21_apply, val_main_v20_apply,
    val_main_cst_apply, val_main_v19_apply, val_main_v18_apply, val_main_v9_apply, weight_h_apply,
    picked_h_apply x0 x4 b e hc]
  exact select_act _ _

/-- Hidden node h of row b: the sum of the edge values whose destination word is the numeral of h. -/
theorem hidden_apply (hch : ∀ e : Fin 1971, 0 ≤ (x4 (ix1 e)).toInt ∧ (x4 (ix1 e)).toInt < 512)
    (hrh : ∀ e : Fin 1971, 0 ≤ (x3 (ix1 e)).toInt) (b : Fin 16384) (h : Fin 128) :
    val_main_v34 (F := Ideal) x0 x1 x3 x4 x5 (ix2 b h)
      = hidSparse (fun k => x0 (ix2 b k)) (fun e => x1 (ix1 e)) (fun e => x3 (ix1 e)) (fun e => x4 (ix1 e))
          (fun e => x5 (ix1 e)) h := by
  unfold val_main_v34
  show Ideal.hostScatterAdd scatter_S16384x128_S1971x1_S16384x1971_0_1_1_1 (val_main_v27 (F := Ideal))
    (val_main_v33 (F := Ideal) x3) (val_main_v26 (F := Ideal) x0 x1 x4 x5) (ix2 b h) = _
  rw [scatterAdd128_apply, val_main_v27_apply, val_main_cst_5_apply, Ideal.ofBits_def, Ideal.ofBits_zero_f32, zero_add]
  unfold hidSparse
  refine Finset.sum_congr rfl fun e _ => ?_
  rw [rows_h_wrapped x3 e (hrh e), edge_h_apply x0 x1 x4 x5 b e (hch e)]
  exact if_congr (toInt_eq_natCast_iff _ _ (by have := h.isLt; omega)) rfl rfl

/-- The source of the output layer, row b at column n: the input row followed by the hidden nodes. -/
theorem source_apply (hch : ∀ e : Fin 1971, 0 ≤ (x4 (ix1 e)).toInt ∧ (x4 (ix1 e)).toInt < 512)
    (hrh : ∀ e : Fin 1971, 0 ≤ (x3 (ix1 e)).toInt) (b : Fin 16384) (n : Fin 640) :
    val_main_v35 (F := Ideal) x0 x1 x3 x4 x5 (ix2 b n)
      = srcAt (fun k => x0 (ix2 b k)) (hidSparse (fun k => x0 (ix2 b k)) (fun e => x1 (ix1 e)) (fun e => x3 (ix1 e))
          (fun e => x4 (ix1 e)) (fun e => x5 (ix1 e))) n.val := by
  unfold val_main_v35 srcAt
  by_cases hn : n.val < 512
  · rw [dif_pos hn]
    exact concatenate_pair_apply_left (t := S16384x640) (s₁ := S16384x512) (s₂ := S16384x128) 1 x0 _
      concatenates_S16384x512_S16384x128_S16384x640_d1 (ix2 b n) rfl (ix2 b ⟨n.val, hn⟩)
      (fun c => match c with | ⟨0, _⟩ => rfl | ⟨1, _⟩ => rfl)
  · have hn' : n.val - 512 < 128 := by have := n.isLt; omega
    rw [dif_neg hn, dif_pos hn']
    rw [concatenate_pair_apply_right (t := S16384x640) (s₁ := S16384x512) (s₂ := S16384x128) 1 x0 _
      concatenates_S16384x512_S16384x128_S16384x640_d1 (ix2 b n) rfl rfl (ix2 b ⟨n.val - 512, hn'⟩)
      (fun c => match c with
        | ⟨0, _⟩ => fun _ => rfl
        | ⟨1, _⟩ => fun hne => absurd rfl hne)
      (by show n.val - 512 + 512 = n.val; omega)]
    exact hidden_apply x0 x1 x3 x4 x5 hch hrh b ⟨n.val - 512, hn'⟩

end Hidden

/-! ## The output layer -/

section Output
variable (x0 : (⟨S16384x512, .f32⟩ : BufTy).Contents (Elt Ideal)) (x1 : (⟨S1971, .f32⟩ : BufTy).Contents (Elt Ideal))
  (x2 : (⟨S4836, .f32⟩ : BufTy).Contents (Elt Ideal))
  (x3 x4 x5 : (⟨S1971, .i32⟩ : BufTy).Contents (Elt Ideal)) (x6 x7 x8 : (⟨S4836, .i32⟩ : BufTy).Contents (Elt Ideal))

/-- A column word that is not negative reaches the gather unchanged. -/
theorem cols_o_wrapped (e : Fin 4836) (h : 0 ≤ (x7 (ix1 e)).toInt) :
    val_main_v41 (F := Ideal) x7 (ix2 e (0 : Fin 1)) = x7 (ix1 e) := by
  have hi : idx_main_v41 (ix2 e (0 : Fin 1)) = ix1 e := funext fun a => match a with | ⟨0, _⟩ => rfl
  rw [val_main_v41_apply, hi, val_main_v40_apply, val_main_v37_apply, val_main_v36_apply, val_main_c_8_apply]
  exact wrap_of_nonneg _ _ h

/-- A destination word that is not negative reaches the scatter unchanged. -/
theorem rows_o_wrapped (e : Fin 4836) (h : 0 ≤ (x6 (ix1 e)).toInt) :
    val_main_v69 (F := Ideal) x6 (ix2 e (0 : Fin 1)) = x6 (ix1 e) := by
  have hi : idx_main_v69 (ix2 e (0 : Fin 1)) = ix1 e := funext fun a => match a with | ⟨0, _⟩ => rfl
  rw [val_main_v69_apply, hi, val_main_v68_apply, val_main_v65_apply, val_main_v64_apply, val_main_c_16_apply]
  exact wrap_of_nonneg _ _ h

/-- The weights, laid along the rows: entry (b, e) is edge e's weight. -/
theorem weight_o_apply (b : Fin 16384) (e : Fin 4836) : val_main_v44 (F := Ideal) x2 (ix2 b e) = x2 (ix1 e) := by
  rw [val_main_v44_apply, val_main_v43_apply]
  exact congrArg x2 (funext fun a => match a with | ⟨0, _⟩ => rfl)

/-- The source entry the output edge e reads, in row b: the one its in-range column word names. -/
theorem picked_o_apply (hch : ∀ e : Fin 1971, 0 ≤ (x4 (ix1 e)).toInt ∧ (x4 (ix1 e)).toInt < 512)
    (hrh : ∀ e : Fin 1971, 0 ≤ (x3 (ix1 e)).toInt) (b : Fin 16384) (e : Fin 4836)
    (hc : 0 ≤ (x7 (ix1 e)).toInt ∧ (x7 (ix1 e)).toInt < 640) :
    val_main_v42 (F := Ideal) x0 x1 x3 x4 x5 x7 (ix2 b e)
      = srcAt (fun k => x0 (ix2 b k)) (hidSparse (fun k => x0 (ix2 b k)) (fun e => x1 (ix1 e)) (fun e => x3 (ix1 e))
          (fun e => x4 (ix1 e)) (fun e => x5 (ix1 e))) (x7 (ix1 e)).toNat := by
  have h1 := toInt_eq_toNat_of_nonneg _ hc.1
  have hlt : (x7 (ix1 e)).toNat < 640 := by omega
  unfold val_main_v42
  rw [gather640_apply, source_apply x0 x1 x3 x4 x5 hch hrh]
  exact congrArg (srcAt _ _) (by
    show min (val_main_v41 (F := Ideal) x7 (ix2 e (0 : Fin 1))).toInt.toNat 639 = (x7 (ix1 e)).toNat
    rw [cols_o_wrapped x7 e hc.1]
    omega)

/-- The value of output edge e in row b: the activated weighted source entry. -/
theorem edge_o_apply (hch : ∀ e : Fin 1971, 0 ≤ (x4 (ix1 e)).toInt ∧ (x4 (ix1 e)).toInt < 512)
    (hrh : ∀ e : Fin 1971, 0 ≤ (x3 (ix1 e)).toInt) (b : Fin 16384) (e : Fin 4836)
    (hc : 0 ≤ (x7 (ix1 e)).toInt ∧ (x7 (ix1 e)).toInt < 640) :
    val_main_v62 (F := Ideal) x0 x1 x2 x3 x4 x5 x7 x8 (ix2 b e)
      = act (x8 (ix1 e)) (srcAt (fun k => x0 (ix2 b k)) (hidSparse (fun k => x0 (ix2 b k)) (fun e => x1 (ix1 e))
          (fun e => x3 (ix1 e)) (fun e => x4 (ix1 e)) (fun e => x5 (ix1 e))) (x7 (ix1 e)).toNat * x2 (ix1 e)) := by
  have i5 : idx_main_call5_v0 (ix2 b e) = ix1 e := funext fun a => match a with | ⟨0, _⟩ => rfl
  have i6 : idx_main_call6_v0 (ix2 b e) = ix1 e := funext fun a => match a with | ⟨0, _⟩ => rfl
  have i7 : idx_main_call7_v0 (ix2 b e) = ix1 e := funext fun a => match a with | ⟨0, _⟩ => rfl
  rw [val_main_v62_apply, val_main_call7_v0_apply, i7, val_main_v47_apply, val_main_v46_apply, val_main_c_10_apply,
    val_main_v48_apply, val_main_v61_apply, val_main_call6_v0_apply, i6, val_main_v50_apply, val_main_v49_apply,
    val_main_c_11_apply, val_main_v51_apply, val_main_call4_v0_apply, val_main_call4_cst_apply,
    val_main_v60_apply, val_main_call5_v0_apply, i5, val_main_v53_apply, val_main_v52_apply, val_main_c_12_apply,
    val_main_v59_apply, val_main_v58_apply, val_main_cst_14_apply, val_main_v57_apply, val_main_v56_apply,
    val_main_cst_13_apply, val_main_v55_apply, val_main_v54_apply, val_main_v45_apply, weight_o_apply,
    picked_o_apply x0 x1 x3 x4 x5 x7 hch hrh b e hc]
  exact select_act _ _

end Output

/-! ## The result -/

/-- The reference's result at row b, output node r, is the sparse layer of row b at r. -/
theorem ref_eq (x0 : (⟨S16384x512, .f32⟩ : BufTy).Contents (Elt Ideal)) (x1 : (⟨S1971, .f32⟩ : BufTy).Contents (Elt Ideal))
    (x2 : (⟨S4836, .f32⟩ : BufTy).Contents (Elt Ideal))
    (x3 x4 x5 : (⟨S1971, .i32⟩ : BufTy).Contents (Elt Ideal)) (x6 x7 x8 : (⟨S4836, .i32⟩ : BufTy).Contents (Elt Ideal))
    (hch : ∀ e : Fin 1971, 0 ≤ (x4 (ix1 e)).toInt ∧ (x4 (ix1 e)).toInt < 512)
    (hco : ∀ e : Fin 4836, 0 ≤ (x7 (ix1 e)).toInt ∧ (x7 (ix1 e)).toInt < 640)
    (hrh : ∀ e : Fin 1971, 0 ≤ (x3 (ix1 e)).toInt)
    (hro : ∀ e : Fin 4836, 0 ≤ (x6 (ix1 e)).toInt)
    (b : Fin 16384) (r : Fin 256) :
    val_main_v71 (F := Ideal) x0 x1 x2 x3 x4 x5 x6 x7 x8 (ix2 b r)
      = Cert.Gnn.outSparse (fun k => x0 (ix2 b k)) (fun e => x1 (ix1 e)) (fun e => x2 (ix1 e)) (fun e => x3 (ix1 e)) (fun e => x4 (ix1 e)) (fun e => x5 (ix1 e))
          (fun e => x6 (ix1 e)) (fun e => x7 (ix1 e)) (fun e => x8 (ix1 e)) r := by
  rw [val_main_v71_apply, Ideal.hostUnary_tanh_def]
  unfold val_main_v70 outSparse
  show Ideal.tanh (Ideal.hostScatterAdd scatter_S16384x256_S4836x1_S16384x4836_0_1_1_1 (val_main_v63 (F := Ideal))
    (val_main_v69 (F := Ideal) x6) (val_main_v62 (F := Ideal) x0 x1 x2 x3 x4 x5 x7 x8) (ix2 b r)) = _
  rw [scatterAdd256_apply, val_main_v63_apply, val_main_cst_15_apply, Ideal.ofBits_def, Ideal.ofBits_zero_f32, zero_add]
  congr 1
  refine Finset.sum_congr rfl fun e _ => ?_
  rw [rows_o_wrapped x6 e (hro e), edge_o_apply x0 x1 x2 x3 x4 x5 x7 x8 hch hrh b e (hco e)]
  exact if_congr (toInt_eq_natCast_iff _ _ (by have := r.isLt; omega)) rfl rfl

end Cert.ReferenceIdeal.Hand

end
-- ==== Proof.lean ====
/-
  The certificate's proof: the message-passing layer computed by three matrix products against one-hot selection
  matrices equals, on the extended reals, the layer computed by gathering columns, weighting, activating and
  scatter-adding, whenever the source-column words lie in their arrays and the destination words are not negative.

  Both programs are brought to ONE array of the arguments, `result`: entry (b, r) is output node r of the sparse
  layer (`Cert.Gnn.outSparse`) applied to row b of the input.
  * The kernel: after its run the output array is, entry by entry, the dense layer of the arrays its region finds
    (`final8`: each block of 128 rows is three matrix products, two activations and a hyperbolic tangent of that
    block of the input and of the whole selection matrices); those arrays are the padded selection matrices of the
    arguments (`aSh_eq` … `aRo_eq`); and the dense layer over padded selection matrices is the sparse layer for every
    choice of the words (`Cert.Gnn.dense_eq_sparse`: a product with a zero entry vanishes, at the infinities too).
  * The reference: its composed term, read one operation at a time, is the sparse layer once the gathers read the
    columns their words name and each scatter sums, per node, the edges that name it (`ref_eq`); this is where the
    bounds on the words are used, and they are what the precondition states (`bounds_of_pre`).
  The three frames are the generated runs (the reference's with its result dropped); no operation of the kernel was
  rewritten by the idealization, so there is nothing to preserve.
-/
import proofs.«168213_j89618787598437_1_alg».proof.Defs
import proofs.«168213_j89618787598437_1_alg».proof.Proof.Gen.Kernel
import proofs.«168213_j89618787598437_1_alg».proof.Proof.Gen.Kernel.Skeleton
import proofs.«168213_j89618787598437_1_alg».proof.Proof.Gen.Kernel.Launch
import proofs.«168213_j89618787598437_1_alg».proof.Proof.Gen.Kernel.Points
import proofs.«168213_j89618787598437_1_alg».proof.Proof.Gen.Kernel.Frame
import proofs.«168213_j89618787598437_1_alg».proof.Proof.Gen.KernelIdeal
import proofs.«168213_j89618787598437_1_alg».proof.Proof.Gen.KernelIdeal.Skeleton
import proofs.«168213_j89618787598437_1_alg».proof.Proof.Gen.KernelIdeal.Launch
import proofs.«168213_j89618787598437_1_alg».proof.Proof.Gen.KernelIdeal.Points
import proofs.«168213_j89618787598437_1_alg».proof.Proof.Gen.KernelIdeal.Frame
import proofs.«168213_j89618787598437_1_alg».proof.Proof.Gen.ReferenceIdeal
import proofs.«168213_j89618787598437_1_alg».proof.Proof.Gen.Pre_finite_inputs
import proofs.«168213_j89618787598437_1_alg».proof.Proof.Gen.KernelIdeal.Value
import proofs.«168213_j89618787598437_1_alg».proof.Proof.Gen.ReferenceIdeal.Run
import proofs.«168213_j89618787598437_1_alg».proof.Proof.Gen.ReferenceIdeal.Read
import proofs.«168213_j89618787598437_1_alg».proof.Proof.Spec
import proofs.«168213_j89618787598437_1_alg».proof.Proof.Windows
import proofs.«168213_j89618787598437_1_alg».proof.Proof.DenseSparse
import proofs.«168213_j89618787598437_1_alg».proof.Proof.PreDecode
import proofs.«168213_j89618787598437_1_alg».proof.Proof.KernelValue
import proofs.«168213_j89618787598437_1_alg».proof.Proof.HostWindows
import proofs.«168213_j89618787598437_1_alg».proof.Proof.RefValue
import Idealize.ShloMosaic.Adequacy
import Idealize.ShloMosaic.Init

noncomputable section

namespace Cert.Proof

open Idealize.ShloMosaic Idealize.SL.Sem Idealize.ShloMosaic.TcCoe Idealize.ShloMosaic.ValueIdx
open Cert.KernelIdeal.Hand

/-- The layer's output as ONE array of the arguments: entry (b, r) is output node r of the sparse layer applied
    to row b.  Both programs end at this array. -/
def result (m : (ℓ : Loc Cert.KernelIdeal.nD Cert.KernelIdeal.τ Cert.KernelIdeal.sig) → Buf (Elt Ideal) ℓ)
    (c : Dev Cert.KernelIdeal.nD) : Cert.KernelIdeal.S16384x256.Idx → EReal :=
  fun i => Cert.Gnn.outSparse (gX m c (i 0)) (gWh m c) (gWo m c) (gRh m c) (gCh m c) (gAh m c) (gRo m c) (gCo m c)
    (gAo m c) (i 1)

/-- The kernel's output array after its run: the dense layer over the arrays the region finds, these being
    the padded selection matrices of the arguments, is the sparse layer. -/
theorem kernel_result (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 8 Cert.KernelIdeal.cfg0.N = result m c := by
  funext i
  obtain ⟨b, r, rfl⟩ : ∃ (b : Fin 16384) (r : Fin 256), i = ix2 b r := ⟨i 0, i 1, eq_ix2 i⟩
  rw [final8 m c b r,
    show aX m c b = gX m c b from funext fun k => aX_eq m c b k,
    show aSh m c = _ from funext fun k => funext fun e => aSh_eq m c k e,
    show aAh m c = _ from funext fun e => aAh_eq m c e,
    show aRh m c = _ from funext fun e => funext fun h => aRh_eq m c e h,
    show aSox m c = _ from funext fun k => funext fun e => aSox_eq m c k e,
    show aSoh m c = _ from funext fun h => funext fun e => aSoh_eq m c h e,
    show aAo m c = _ from funext fun e => aAo_eq m c e,
    show aRo m c = _ from funext fun e => funext fun r => aRo_eq m c e r]
  exact Cert.Gnn.dense_eq_sparse _ _ _ _ _ _ _ _ _ r

/-- The reference's result from a memory that agrees with the kernel's on the arguments: under the bounds the
    precondition states of the index words, the gathers read the named columns and each scatter sums, per node,
    the edges that name it. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v71 m' c = result m c := by
  obtain ⟨h0, h1, h2, h3, h4, h5, h6, h7, h8⟩ := hagree
  obtain ⟨hch, hco, hrh, hro⟩ := Cert.Pre_finite_inputs.Hand.bounds_of_pre _ _ _ _ _ _ _ _ _ (hpre c)
  rw [Cert.ReferenceIdeal.Read.val_main_v71_eq, h0, h1, h2, h3, h4, h5, h6, h7, h8]
  funext i
  obtain ⟨b, r, rfl⟩ : ∃ (b : Fin 16384) (r : Fin 256), i = ix2 b r := ⟨i 0, i 1, eq_ix2 i⟩
  exact Cert.ReferenceIdeal.Hand.ref_eq _ _ _ _ _ _ _ _ _ (fun e => hch (ix1 e)) (fun e => hco (ix1 e))
    (fun e => hrh (ix1 e)) (fun e => hro (ix1 e)) b r

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the same array, `result`, of the arguments they agree on. -/
theorem algebraic : Cert.algebraic_KernelIdeal_ReferenceIdeal := by
  intro m ρ m' ρ' hpre hagree
  refine ⟨fun c => result m c, ?_, ?_⟩
  · exact (θ_run Cert.KernelIdeal.defs _ _).mono
      (fun r h c => ⟨(h c).1.trans (kernel_result m c), (h c).2⟩) (Cert.KernelIdeal.Value.run_blocks m ρ)
  · exact (θ_run Cert.ReferenceIdeal.defs _ _).mono
      (fun _ h c => ⟨(h c).1.trans (reference_result m m' hpre c (hagree c)), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
